-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S64 .f32) (main_arg6 : FVec F S64x512 .f32) (main_arg7 : FVec F S512 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) (main_arg6 : FVec F S64x512 .f32) (main_arg7 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S128x192 : Shape := ⟨2, ![128, 192]⟩
abbrev S1x128 : Shape := ⟨2, ![1, 128]⟩
abbrev S1x64 : Shape := ⟨2, ![1, 64]⟩
abbrev S1x512 : Shape := ⟨2, ![1, 512]⟩
abbrev S2x512x128 : Shape := ⟨3, ![2, 512, 128]⟩
abbrev S1000x128 : Shape := ⟨2, ![1000, 128]⟩
abbrev S1x512x128 : Shape := ⟨3, ![1, 512, 128]⟩
abbrev S512x128 : Shape := ⟨2, ![512, 128]⟩
abbrev S1000x192 : Shape := ⟨2, ![1000, 192]⟩
abbrev S1000x64 : Shape := ⟨2, ![1000, 64]⟩
abbrev S1000x512 : Shape := ⟨2, ![1000, 512]⟩
abbrev S1000 : Shape := ⟨1, ![1000]⟩
abbrev S1000x1 : Shape := ⟨2, ![1000, 1]⟩
abbrev S512x1000 : Shape := ⟨2, ![512, 1000]⟩

abbrev nBuf : Space → Nat
  | .hbm => 71
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x512, .f32⟩
  | .hbm, ⟨7, _⟩ => ⟨S512, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S650000x1, .f32⟩
  | .hbm, ⟨58, _⟩ => ⟨S650000x128, .f32⟩
  | .hbm, ⟨59, _⟩ => ⟨S650000x128, .f32⟩
  | .hbm, ⟨60, _⟩ => ⟨S_, .f32⟩
  | .hbm, ⟨61, _⟩ => ⟨S50000x128, .f32⟩
  | .hbm, ⟨62, _⟩ => ⟨S650000x1, .i32⟩
  | .hbm, ⟨63, _⟩ => ⟨S50000x128, .f32⟩
  | .hbm, ⟨64, _⟩ => ⟨S128x192, .f32⟩
  | .hbm, ⟨65, _⟩ => ⟨S1x128, .f32⟩
  | .hbm, ⟨66, _⟩ => ⟨S1x64, .f32⟩
  | .hbm, ⟨67, _⟩ => ⟨S1x512, .f32⟩
  | .hbm, ⟨68, _⟩ => ⟨S2x512x128, .f32⟩
  | .hbm, ⟨69, _⟩ => ⟨S_, .f32⟩
  | .hbm, ⟨70, _⟩ => ⟨S512x128, .f32⟩
  | .local _ .vmem, ⟨0, _⟩ => ⟨S1000x128, .f32⟩
  | .local _ .vmem, ⟨1, _⟩ => ⟨S1000x128, .f32⟩
  | .local _ .vmem, ⟨2, _⟩ => ⟨S128x192, .f32⟩
  | .local _ .vmem, ⟨3, _⟩ => ⟨S64x512, .f32⟩
  | .local _ .vmem, ⟨4, _⟩ => ⟨S1x64, .f32⟩
  | .local _ .vmem, ⟨5, _⟩ => ⟨S1x512, .f32⟩
  | .local _ .vmem, ⟨6, _⟩ => ⟨S1x128, .f32⟩
  | .local _ .vmem, ⟨7, _⟩ => ⟨S1x512x128, .f32⟩
  | .local _ .vmem, ⟨8, _⟩ => ⟨S1x512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  concatenates_S128x128_S128x64_S128x192_d1 : Shape.Concatenates [S128x128, S128x64] S128x192 1
  shapeCasts_S128_S1x128 : S128.ShapeCasts S1x128
  shapeCasts_S64_S1x64 : S64.ShapeCasts S1x64
  shapeCasts_S512_S1x512 : S512.ShapeCasts S1x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  slices_S1000x192_o0_0_S1000x128 : S1000x192.Slices ![0, 0] S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S1000x192_o0_128_S1000x64 : S1000x192.Slices ![0, 128] S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  transposes_S1000x512_p1_0_S512x1000 : S1000x512.Transposes [1, 0] S512x1000
  reducesTo_S2x512x128_S512x128_d0 : S2x512x128.ReducesTo [0] S512x128
  h_S_ : 0 < S_.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S1000x128_S128x192_S1000x192_1_0_0_1_n_n_wf : DotDims.WF S1000x128 S128x192 S1000x192 [1] [0] [0] [1] [] []
  dot_S1000x64_S64x512_S1000x512_1_0_0_1_n_n_wf : DotDims.WF S1000x64 S64x512 S1000x512 [1] [0] [0] [1] [] []
  dot_S512x1000_S1000x128_S512x128_1_0_0_1_n_n_wf : DotDims.WF S512x1000 S1000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S2x512x128.size a
  hwx0_6 : ∀ i : grid0.Coords, EltTy.bits .f32 = 32 ∨ (Rect.block (s := S2x512x128) S1x512x128.size (cc0_transform_6 i) (hinb0_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S1000x64_S64x512_S1000x512_1_0_0_1_n_n : DotDims S1000x64 S64x512 S1000x512 where
  lhsContracting := [1]
  rhsContracting := [0]
  lhsNonContracting := [0]
  rhsNonContracting := [1]
  lhsBatch := []
  rhsBatch := []
  wf := dot_S1000x64_S64x512_S1000x512_1_0_0_1_n_n_wf
def dot_S512x1000_S1000x128_S512x128_1_0_0_1_n_n : DotDims S512x1000 S1000x128 S512x128 where
  lhsContracting := [1]
  rhsContracting := [0]
  lhsNonContracting := [0]
  rhsNonContracting := [1]
  lhsBatch := []
  rhsBatch := []
  wf := dot_S512x1000_S1000x128_S512x128_1_0_0_1_n_n_wf

abbrev win0_0 : Pipeline.Window sig grid0 :=
  Pipeline.Window.ofSpec (Memref.whole main_v42) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S50000x512 : Shape := ⟨2, ![50000, 512]⟩
abbrev S1x512 : Shape := ⟨2, ![1, 512]⟩
abbrev S50000x1 : Shape := ⟨2, ![50000, 1]⟩
abbrev S512x50000 : Shape := ⟨2, ![512, 50000]⟩
abbrev S512x128 : Shape := ⟨2, ![512, 128]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S64x512, .f32⟩
  | 7 => ⟨S512, .f32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S50000, .i32⟩
  | 14 => ⟨S650000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S50000, .i32⟩
  | 73 => ⟨S650000, .i32⟩
  | 74 => ⟨S650000, .i32⟩
  | 75 => ⟨S_, .f32⟩
  | 76 => ⟨S650000, .f32⟩
  | 77 => ⟨S_, .f32⟩
  | 78 => ⟨S50000, .f32⟩
  | 79 => ⟨S650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S650000, .i32⟩
  | 91 => ⟨S650000, .i1⟩
  | 92 => ⟨S_, .i32⟩
  | 93 => ⟨S650000, .i32⟩
  | 94 => ⟨S650000, .i32⟩
  | 95 => ⟨S650000, .i32⟩
  | 96 => ⟨S650000x1, .i32⟩
  | 97 => ⟨S650000, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000, .f32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x64, .f32⟩
  | 117 => ⟨S650000x1, .f32⟩
  | 118 => ⟨S650000x64, .f32⟩
  | 119 => ⟨S650000x64, .f32⟩
  | 120 => ⟨S_, .f32⟩
  | 121 => ⟨S50000x64, .f32⟩
  | 122 => ⟨S650000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S50000x512, .f32⟩
  | 3 => ⟨S1x512, .f32⟩
  | 4 => ⟨S50000x512, .f32⟩
  | 5 => ⟨S50000x512, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x512, .f32⟩
  | 13 => ⟨S50000x512, .f32⟩
  | 14 => ⟨S50000x512, .f32⟩
  | 15 => ⟨S_, .f32⟩
  | 16 => ⟨S50000, .f32⟩
  | 17 => ⟨S50000x1, .f32⟩
  | 18 => ⟨S50000x512, .f32⟩
  | 19 => ⟨S50000x512, .f32⟩
  | 20 => ⟨S512x50000, .f32⟩
  | 21 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x512_S50000x512_1_0_0_1_n_n_wf : DotDims.WF S50000x64 S64x512 S50000x512 [1] [0] [0] [1] [] []
  dot_S512x50000_S50000x128_S512x128_1_0_0_1_n_n_wf : DotDims.WF S512x50000 S50000x128 S512x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x512_S50000x512_1_0_0_1_n_n : DotDims S50000x64 S64x512 S50000x512 where
  lhsContracting := [1]
  rhsContracting := [0]
  lhsNonContracting := [0]
  rhsNonContracting := [1]
  lhsBatch := []
  rhsBatch := []
  wf := dot_S50000x64_S64x512_S50000x512_1_0_0_1_n_n_wf
def dot_S512x50000_S50000x128_S512x128_1_0_0_1_n_n : DotDims S512x50000 S50000x128 S512x128 where
  lhsContracting := [1]
  rhsContracting := [0]
  lhsNonContracting := [0]
  rhsNonContracting := [1]
  lhsBatch := []
  rhsBatch := []
  wf := dot_S512x50000_S50000x128_S512x128_1_0_0_1_n_n_wf

class Facts : Prop extends Facts₀ where

variable [Facts]
-- ==== Proof.KernelPieces.lean ====
/-
  What one grid point leaves in the output block.

  The body computes, from a tile of a thousand aggregated feature rows, the product of the transposed row-wise
  softmax assignment with the clamped embedding of the same rows, and adds it to what the output block held. At
  the first tile of a core the block is first set to zero; at every other tile it holds the previous tile's
  result. Both cases end with ONE store covering the whole block, so the block's contents are that store's
  value as a pure function of the six input blocks and of the previous contents.
-/
import proofs.«149685_j16475494547689_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.PoolValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The block after one tile: the tile's contribution added to the previous contents `prev`. The six inputs are the
    tile of aggregated rows, the two weight matrices side by side, the cluster weights, and the three biases. -/
abbrev tile (x0 : Vec F S1000x128 .f32) (x1 : Vec F S128x192 .f32) (x2 : Vec F S64x512 .f32) (x3 : Vec F S1x64 .f32) (x4 : Vec F S1x512 .f32) (x5 : Vec F S1x128 .f32) (prev : Vec F S1x512x128 .f32) : Vec F S1x512x128 .f32 :=
  k0_pay1 (k0_pay4 x0 x1 x5) (k0_pay5 x0 x1 x3 x2 x4) (k0_pay6 x0 x1 x3 x2 x4) prev

/-- A tile that is not the first of its core adds its contribution to what the block held. -/
theorem out_B (c : Dev nD) (i : grid0.Coords) (arg2 : Memref sig .tc .vmem S1000x128 .f32) (harg2 : arg2.IsWhole) (arg3 : Memref sig .tc .vmem S128x192 .f32) (harg3 : arg3.IsWhole) (arg4 : Memref sig .tc .vmem S64x512 .f32) (harg4 : arg4.IsWhole) (arg5 : Memref sig .tc .vmem S1x64 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x512x128 .f32) (harg8 : arg8.IsWhole) (hc0 : ¬cond0_0 i)
    (x0 : Vec F S1000x128 .f32) (x1 : Vec F S128x192 .f32) (x2 : Vec F S64x512 .f32) (x3 : Vec F S1x64 .f32) (x4 : Vec F S1x512 .f32) (x5 : Vec F S1x128 .f32) (xo6 : Vec F S1x512x128 .f32) :
    out0_B_6 c i arg2 harg2 arg3 harg3 arg4 harg4 arg5 harg5 arg6 harg6 arg7 harg7 arg8 harg8 hc0 x0 x1 x2 x3 x4 x5 xo6 = tile x0 x1 x2 x3 x4 x5 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S1000x128) hz2, View.ld_unit_zero (S := S128x192) hz2, View.ld_unit_zero (S := S64x512) hz2, View.ld_unit_zero (S := S1x64) hz2,
    View.ld_unit_zero (S := S1x512) hz2, View.ld_unit_zero (S := S1x128) hz2, View.ld_unit_zero (S := S1x512x128) hz3]

/-- The first tile of a core adds its contribution to the zero block it has just stored. -/
theorem out_A (c : Dev nD) (i : grid0.Coords) (arg2 : Memref sig .tc .vmem S1000x128 .f32) (harg2 : arg2.IsWhole) (arg3 : Memref sig .tc .vmem S128x192 .f32) (harg3 : arg3.IsWhole) (arg4 : Memref sig .tc .vmem S64x512 .f32) (harg4 : arg4.IsWhole) (arg5 : Memref sig .tc .vmem S1x64 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x512x128 .f32) (harg8 : arg8.IsWhole) (hc0 : cond0_0 i)
    (x0 : Vec F S1000x128 .f32) (x1 : Vec F S128x192 .f32) (x2 : Vec F S64x512 .f32) (x3 : Vec F S1x64 .f32) (x4 : Vec F S1x512 .f32) (x5 : Vec F S1x128 .f32) :
    out0_A_6 c i arg2 harg2 arg3 harg3 arg4 harg4 arg5 harg5 arg6 harg6 arg7 harg7 arg8 harg8 hc0 x0 x1 x2 x3 x4 x5 = tile x0 x1 x2 x3 x4 x5 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x512x128) hz3, View.readCov_unit_zero (S := S1x512x128) _ hz3]
  simp only [View.readAt_eq_ld, harg2.read_unread, harg3.read_unread, harg4.read_unread, harg5.read_unread, harg6.read_unread, harg7.read_unread, harg8.read_unread,
    View.ld_unit_zero (S := S1000x128) hz2, View.ld_unit_zero (S := S128x192) hz2, View.ld_unit_zero (S := S64x512) hz2, View.ld_unit_zero (S := S1x64) hz2,
    View.ld_unit_zero (S := S1x512) hz2, View.ld_unit_zero (S := S1x128) hz2, View.ld_unit_zero (S := S1x512x128) hz3]

end Cert.KernelIdeal.PoolValue

end
-- ==== Proof.KernelOps.lean ====
/-
  Reading the body's non-pointwise operations at an index, over the extended reals: the three matrix products into a
  zero accumulator (each entry is the sum over the contracted axis of row entries times column entries), a vector
  laid out as a column and a column repeated along the rows, and the index a reduction along the rows reads.
-/
import proofs.«149685_j16475494547689_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PoolValue

open Cert.KernelIdeal Cert.KernelIdeal.Gen

theorem mm1_l0 (i : S1000x192.Idx) (q : dot_S1000x128_S128x192_S1000x192_1_0_0_1_n_n.contr.Idx) : (dot_S1000x128_S128x192_S1000x192_1_0_0_1_n_n.lhsIdx i q 0).val = (i 0).val := by
  unfold DotDims.lhsIdx
  rw [dif_neg (show ¬(0 : Fin S1000x128.rank) ∈ dot_S1000x128_S128x192_S1000x192_1_0_0_1_n_n.lhsBatch by decide), dif_pos (show (0 : Fin S1000x128.rank) ∈ dot_S1000x128_S128x192_S1000x192_1_0_0_1_n_n.lhsNonContracting by decide)]
  rfl
theorem mm1_r1 (i : S1000x192.Idx) (q : dot_S1000x128_S128x192_S1000x192_1_0_0_1_n_n.contr.Idx) : (dot_S1000x128_S128x192_S1000x192_1_0_0_1_n_n.rhsIdx i q 1).val = (i 1).val := by
  unfold DotDims.rhsIdx
  rw [dif_neg (show ¬(1 : Fin S128x192.rank) ∈ dot_S1000x128_S128x192_S1000x192_1_0_0_1_n_n.rhsBatch by decide), dif_pos (show (1 : Fin S128x192.rank) ∈ dot_S1000x128_S128x192_S1000x192_1_0_0_1_n_n.rhsNonContracting by decide)]
  rfl
/-- The product into a zero accumulator, at (a, b): the sum over the contracted axis of the row's entries times the column's. -/
theorem mm1_apply {φ₁ φ₂ : FTy} (l : FVec Ideal S1000x128 φ₁) (r : FVec Ideal S128x192 φ₂) (a : Fin 1000) (b : Fin 192) :
    matmul dot_S1000x128_S128x192_S1000x192_1_0_0_1_n_n none l r (constant S1000x192 .f32 0x00000000#32) (ix2 a b) = ∑ k : Fin 128, l (ix2 a k) * r (ix2 k b) := by
  simp only [matmul]
  rw [Ideal.matmul_constant_zero_apply, ← Equiv.sum_comp (contrEquiv1 dot_S1000x128_S128x192_S1000x192_1_0_0_1_n_n 128 rfl rfl).symm]
  refine Finset.sum_congr rfl fun k _ => ?_
  have hk := contrEquiv1_symm_val dot_S1000x128_S128x192_S1000x192_1_0_0_1_n_n 128 rfl rfl k
  have el : dot_S1000x128_S128x192_S1000x192_1_0_0_1_n_n.lhsIdx (ix2 a b) ((contrEquiv1 dot_S1000x128_S128x192_S1000x192_1_0_0_1_n_n 128 rfl rfl).symm k) = ix2 a k := funext fun x => Fin.ext (by
    match x with
    | ⟨0, _⟩ => exact mm1_l0 _ _
    | ⟨1, _⟩ => exact (dot_S1000x128_S128x192_S1000x192_1_0_0_1_n_n.lhsIdx_val_of_single rfl _ _).trans hk)
  have er : dot_S1000x128_S128x192_S1000x192_1_0_0_1_n_n.rhsIdx (ix2 a b) ((contrEquiv1 dot_S1000x128_S128x192_S1000x192_1_0_0_1_n_n 128 rfl rfl).symm k) = ix2 k b := funext fun x => Fin.ext (by
    match x with
    | ⟨0, _⟩ => exact (dot_S1000x128_S128x192_S1000x192_1_0_0_1_n_n.rhsIdx_val_of_single rfl _ _).trans hk
    | ⟨1, _⟩ => exact mm1_r1 _ _)
  rw [el, er]

theorem mm2_l0 (i : S1000x512.Idx) (q : dot_S1000x64_S64x512_S1000x512_1_0_0_1_n_n.contr.Idx) : (dot_S1000x64_S64x512_S1000x512_1_0_0_1_n_n.lhsIdx i q 0).val = (i 0).val := by
  unfold DotDims.lhsIdx
  rw [dif_neg (show ¬(0 : Fin S1000x64.rank) ∈ dot_S1000x64_S64x512_S1000x512_1_0_0_1_n_n.lhsBatch by decide), dif_pos (show (0 : Fin S1000x64.rank) ∈ dot_S1000x64_S64x512_S1000x512_1_0_0_1_n_n.lhsNonContracting by decide)]
  rfl
theorem mm2_r1 (i : S1000x512.Idx) (q : dot_S1000x64_S64x512_S1000x512_1_0_0_1_n_n.contr.Idx) : (dot_S1000x64_S64x512_S1000x512_1_0_0_1_n_n.rhsIdx i q 1).val = (i 1).val := by
  unfold DotDims.rhsIdx
  rw [dif_neg (show ¬(1 : Fin S64x512.rank) ∈ dot_S1000x64_S64x512_S1000x512_1_0_0_1_n_n.rhsBatch by decide), dif_pos (show (1 : Fin S64x512.rank) ∈ dot_S1000x64_S64x512_S1000x512_1_0_0_1_n_n.rhsNonContracting by decide)]
  rfl
/-- The product into a zero accumulator, at (a, b): the sum over the contracted axis of the row's entries times the column's. -/
theorem mm2_apply {φ₁ φ₂ : FTy} (l : FVec Ideal S1000x64 φ₁) (r : FVec Ideal S64x512 φ₂) (a : Fin 1000) (b : Fin 512) :
    matmul dot_S1000x64_S64x512_S1000x512_1_0_0_1_n_n none l r (constant S1000x512 .f32 0x00000000#32) (ix2 a b) = ∑ k : Fin 64, l (ix2 a k) * r (ix2 k b) := by
  simp only [matmul]
  rw [Ideal.matmul_constant_zero_apply, ← Equiv.sum_comp (contrEquiv1 dot_S1000x64_S64x512_S1000x512_1_0_0_1_n_n 64 rfl rfl).symm]
  refine Finset.sum_congr rfl fun k _ => ?_
  have hk := contrEquiv1_symm_val dot_S1000x64_S64x512_S1000x512_1_0_0_1_n_n 64 rfl rfl k
  have el : dot_S1000x64_S64x512_S1000x512_1_0_0_1_n_n.lhsIdx (ix2 a b) ((contrEquiv1 dot_S1000x64_S64x512_S1000x512_1_0_0_1_n_n 64 rfl rfl).symm k) = ix2 a k := funext fun x => Fin.ext (by
    match x with
    | ⟨0, _⟩ => exact mm2_l0 _ _
    | ⟨1, _⟩ => exact (dot_S1000x64_S64x512_S1000x512_1_0_0_1_n_n.lhsIdx_val_of_single rfl _ _).trans hk)
  have er : dot_S1000x64_S64x512_S1000x512_1_0_0_1_n_n.rhsIdx (ix2 a b) ((contrEquiv1 dot_S1000x64_S64x512_S1000x512_1_0_0_1_n_n 64 rfl rfl).symm k) = ix2 k b := funext fun x => Fin.ext (by
    match x with
    | ⟨0, _⟩ => exact (dot_S1000x64_S64x512_S1000x512_1_0_0_1_n_n.rhsIdx_val_of_single rfl _ _).trans hk
    | ⟨1, _⟩ => exact mm2_r1 _ _)
  rw [el, er]

theorem mm3_l0 (i : S512x128.Idx) (q : dot_S512x1000_S1000x128_S512x128_1_0_0_1_n_n.contr.Idx) : (dot_S512x1000_S1000x128_S512x128_1_0_0_1_n_n.lhsIdx i q 0).val = (i 0).val := by
  unfold DotDims.lhsIdx
  rw [dif_neg (show ¬(0 : Fin S512x1000.rank) ∈ dot_S512x1000_S1000x128_S512x128_1_0_0_1_n_n.lhsBatch by decide), dif_pos (show (0 : Fin S512x1000.rank) ∈ dot_S512x1000_S1000x128_S512x128_1_0_0_1_n_n.lhsNonContracting by decide)]
  rfl
theorem mm3_r1 (i : S512x128.Idx) (q : dot_S512x1000_S1000x128_S512x128_1_0_0_1_n_n.contr.Idx) : (dot_S512x1000_S1000x128_S512x128_1_0_0_1_n_n.rhsIdx i q 1).val = (i 1).val := by
  unfold DotDims.rhsIdx
  rw [dif_neg (show ¬(1 : Fin S1000x128.rank) ∈ dot_S512x1000_S1000x128_S512x128_1_0_0_1_n_n.rhsBatch by decide), dif_pos (show (1 : Fin S1000x128.rank) ∈ dot_S512x1000_S1000x128_S512x128_1_0_0_1_n_n.rhsNonContracting by decide)]
  rfl
/-- The product into a zero accumulator, at (a, b): the sum over the contracted axis of the row's entries times the column's. -/
theorem mm3_apply {φ₁ φ₂ : FTy} (l : FVec Ideal S512x1000 φ₁) (r : FVec Ideal S1000x128 φ₂) (a : Fin 512) (b : Fin 128) :
    matmul dot_S512x1000_S1000x128_S512x128_1_0_0_1_n_n none l r (constant S512x128 .f32 0x00000000#32) (ix2 a b) = ∑ k : Fin 1000, l (ix2 a k) * r (ix2 k b) := by
  simp only [matmul]
  rw [Ideal.matmul_constant_zero_apply, ← Equiv.sum_comp (contrEquiv1 dot_S512x1000_S1000x128_S512x128_1_0_0_1_n_n 1000 rfl rfl).symm]
  refine Finset.sum_congr rfl fun k _ => ?_
  have hk := contrEquiv1_symm_val dot_S512x1000_S1000x128_S512x128_1_0_0_1_n_n 1000 rfl rfl k
  have el : dot_S512x1000_S1000x128_S512x128_1_0_0_1_n_n.lhsIdx (ix2 a b) ((contrEquiv1 dot_S512x1000_S1000x128_S512x128_1_0_0_1_n_n 1000 rfl rfl).symm k) = ix2 a k := funext fun x => Fin.ext (by
    match x with
    | ⟨0, _⟩ => exact mm3_l0 _ _
    | ⟨1, _⟩ => exact (dot_S512x1000_S1000x128_S512x128_1_0_0_1_n_n.lhsIdx_val_of_single rfl _ _).trans hk)
  have er : dot_S512x1000_S1000x128_S512x128_1_0_0_1_n_n.rhsIdx (ix2 a b) ((contrEquiv1 dot_S512x1000_S1000x128_S512x128_1_0_0_1_n_n 1000 rfl rfl).symm k) = ix2 k b := funext fun x => Fin.ext (by
    match x with
    | ⟨0, _⟩ => exact (dot_S512x1000_S1000x128_S512x128_1_0_0_1_n_n.rhsIdx_val_of_single rfl _ _).trans hk
    | ⟨1, _⟩ => exact mm3_r1 _ _)
  rw [el, er]

section Layout
variable {α : Type}

/-- A vector written as a column reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column repeated along the rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A reduction along the rows of a matrix reads, for row r and position k, the entry (r, k). -/
theorem lift_row {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

end Cert.KernelIdeal.PoolValue

end
-- ==== Proof.Spec.lean ====
/-
  The pooled result, as a function of plain index types.

  A graph with fifty thousand nodes and six hundred and fifty thousand directed edges (self-loops included) is
  given by three pieces of edge data: the node `src e` an edge reads, the relation `hit e n` "edge e lands on
  node n", and the edge's real weight `nrm e`. Aggregating a node function f along the edges gives, at node n,
  the sum over the edges landing on n of f at the edge's source times the edge's weight.

  Every node n then carries two pre-activation rows (128 and 64 entries). A bias is added to each and the result
  clamped at zero; the second row goes through an affine map to 512 logits and a softmax over them (the maximum
  subtracted first); the result at (u, q) is the sum over all nodes of the node's u-th assignment times its q-th
  embedding entry.

  The two programs differ only in how the pre-activation rows arise: one aggregates the raw features and then
  multiplies by the weights (`preK`), the other multiplies first and aggregates the products (`preR`).
-/
import Idealize.ShloMosaic.PureOps.Ideal

noncomputable section

namespace Cert.Pool

open Idealize.ShloMosaic

/-- The words the programs clamp at and start a maximum from; they are the same words on both sides and are never
    evaluated. -/
abbrev zero32 : EReal := Ideal.ofBits .f32 0x00000000#32
abbrev ninf32 : EReal := Ideal.ofBits .f32 0xFF800000#32

/-- Aggregation along the edges. -/
def agg (hit : Fin 650000 → Fin 50000 → Prop) [∀ e n, Decidable (hit e n)] (src : Fin 650000 → Fin 50000)
    (nrm : Fin 650000 → EReal) (f : Fin 50000 → EReal) (n : Fin 50000) : EReal :=
  ∑ e ∈ Finset.univ.filter (fun e => hit e n), f (src e) * nrm e

/-- A pre-activation entry plus its bias, clamped at zero. -/
def clamp (pre b : EReal) : EReal := max (pre + b) zero32

/-- The 512 logits of a node from its 64 clamped assignment activations. -/
def logits (W3 : Fin 64 → Fin 512 → EReal) (b3 : Fin 512 → EReal) (a : Fin 64 → EReal) (u : Fin 512) : EReal :=
  (∑ p, a p * W3 p u) + b3 u

/-- The row maximum as both programs take it: a fold of `max` from the word for minus infinity, joined once more
    with that word. -/
def rowMax (l : Fin 512 → EReal) : EReal := max ninf32 ((Finset.univ : Finset (Fin 512)).fold max ninf32 l)

/-- The softmax numerators and the softmax. -/
def expo (l : Fin 512 → EReal) (u : Fin 512) : EReal := Ideal.exp (l u - rowMax l)
def soft (l : Fin 512 → EReal) (u : Fin 512) : EReal := Ideal.div (expo l u) (∑ v, expo l v)

/-- One node's contribution at (u, q), from its two pre-activation rows. -/
def node (b1 : Fin 128 → EReal) (b2 : Fin 64 → EReal) (W3 : Fin 64 → Fin 512 → EReal) (b3 : Fin 512 → EReal)
    (pre1 : Fin 128 → EReal) (pre2 : Fin 64 → EReal) (u : Fin 512) (q : Fin 128) : EReal :=
  soft (logits W3 b3 (fun p => clamp (pre2 p) (b2 p))) u * clamp (pre1 q) (b1 q)

/-- The pooled result from the nodes' pre-activation rows. -/
def pooled (b1 : Fin 128 → EReal) (b2 : Fin 64 → EReal) (W3 : Fin 64 → Fin 512 → EReal) (b3 : Fin 512 → EReal)
    (pre1 : Fin 50000 → Fin 128 → EReal) (pre2 : Fin 50000 → Fin 64 → EReal) (u : Fin 512) (q : Fin 128) : EReal :=
  ∑ n, node b1 b2 W3 b3 (pre1 n) (pre2 n) u q

/-- Pre-activations, aggregate first: the aggregated raw features times a weight column. -/
def preK {C : Nat} (hit : Fin 650000 → Fin 50000 → Prop) [∀ e n, Decidable (hit e n)] (src : Fin 650000 → Fin 50000)
    (nrm : Fin 650000 → EReal) (x : Fin 50000 → Fin 128 → EReal) (W : Fin 128 → Fin C → EReal)
    (n : Fin 50000) (c : Fin C) : EReal :=
  ∑ k, agg hit src nrm (fun r => x r k) n * W k c

/-- Pre-activations, multiply first: the aggregated products. -/
def preR {C : Nat} (hit : Fin 650000 → Fin 50000 → Prop) [∀ e n, Decidable (hit e n)] (src : Fin 650000 → Fin 50000)
    (nrm : Fin 650000 → EReal) (x : Fin 50000 → Fin 128 → EReal) (W : Fin 128 → Fin C → EReal)
    (n : Fin 50000) (c : Fin C) : EReal :=
  agg hit src nrm (fun r => ∑ k, x r k * W k c) n

end Cert.Pool

end
-- ==== Proof.KernelPayload.lean ====
/-
  The tile's contribution, entry by entry, over the extended reals.

  For a tile of a thousand aggregated rows the body forms, per row, 192 pre-activations (the row times the two weight
  matrices side by side), clamps the first 128 (plus a bias) and the last 64 (plus a bias) at zero, maps the latter
  affinely to 512 logits, takes their softmax (the row maximum subtracted first), and adds to the block, at (u, q),
  the sum over the tile's rows of the u-th assignment times the q-th embedding entry: the specification's `node`.
-/
import proofs.«149685_j16475494547689_2_alg».proof.Proof.KernelPieces
import proofs.«149685_j16475494547689_2_alg».proof.Proof.KernelOps
import proofs.«149685_j16475494547689_2_alg».proof.Proof.Spec

set_option maxRecDepth 16384

noncomputable section

open Idealize.ShloMosaic Idealize.ShloMosaic.ValueIdx

namespace Cert.KernelIdeal.PoolValue

open Cert.KernelIdeal Cert.KernelIdeal.Gen Cert.Pool

variable (x0 : Vec Ideal S1000x128 .f32) (x1 : Vec Ideal S128x192 .f32) (x2 : Vec Ideal S64x512 .f32)
  (x3 : Vec Ideal S1x64 .f32) (x4 : Vec Ideal S1x512 .f32) (x5 : Vec Ideal S1x128 .f32)

/-- Column q of the first weight matrix, and column p of the second, inside the two laid side by side. -/
abbrev colE (q : Fin 128) : Fin 192 := ⟨0 + q.val, by omega⟩
abbrev colA (p : Fin 64) : Fin 192 := ⟨128 + p.val, by omega⟩

/-- The tile's pre-activations: row r of the tile times a column of the weights. -/
def pre (r : Fin 1000) (col : Fin 192) : EReal := ∑ k : Fin 128, x0 (ix2 r k) * x1 (ix2 k col)

theorem pay3_apply (r : Fin 1000) (col : Fin 192) : k0_pay3 x0 x1 (ix2 r col) = pre x0 x1 r col := by
  unfold k0_pay3
  simp only [shapeCast_self]
  exact mm1_apply _ _ r col

/-- The clamped embedding of row r at q. -/
theorem pay4_apply (r : Fin 1000) (q : Fin 128) :
    k0_pay4 x0 x1 x5 (ix2 r q) = clamp (pre x0 x1 r (colE q)) (x5 (ix2 (0 : Fin 1) q)) := by
  unfold k0_pay4
  simp only [shapeCast_self]
  rw [maximumf_apply, addf_apply, slice2_axis1_eq 0 _ _ r q, broadcastTo_1b_ab_apply, broadcast_apply, pay3_apply]
  rfl

/-- The 512 logits of row r. -/
theorem pay5_apply (r : Fin 1000) (u : Fin 512) :
    k0_pay5 x0 x1 x3 x2 x4 (ix2 r u)
      = logits (fun p u => x2 (ix2 p u)) (fun u => x4 (ix2 (0 : Fin 1) u))
          (fun p => clamp (pre x0 x1 r (colA p)) (x3 (ix2 (0 : Fin 1) p))) u := by
  unfold k0_pay5
  simp only [shapeCast_self]
  rw [addf_apply, mm2_apply, broadcastTo_1b_ab_apply]
  unfold logits
  congr 1
  refine Finset.sum_congr rfl fun p _ => ?_
  rw [truncf_apply, truncf_apply, maximumf_apply, addf_apply, slice2_axis1_eq 128 _ _ r p, broadcastTo_1b_ab_apply, broadcast_apply, pay3_apply]
  rfl

/-- The row maximum, repeated along the row. -/
theorem pay6_apply (r : Fin 1000) (u : Fin 512) :
    k0_pay6 x0 x1 x3 x2 x4 (ix2 r u) = rowMax (fun u' => k0_pay5 x0 x1 x3 x2 x4 (ix2 r u')) := by
  unfold k0_pay6
  rw [broadcastTo_a1_ab_apply, shapeCast_a_a1_apply, maximumf_apply, broadcast_apply]
  unfold rowMax
  refine congrArg (max _) ?_
  refine (Ideal.multiReduction_maximumf_single (k0_pay5 x0 x1 x3 x2 x4) 0xFF800000#32 reduces_S1000x512_S1000 (.inl rfl) rfl (ix1 r)).trans ?_
  show Finset.fold max ninf32 (fun k : Fin 512 => k0_pay5 x0 x1 x3 x2 x4 (reduces_S1000x512_S1000.lift (ix1 r) k)) Finset.univ = _
  simp only [lift_row]

/-- The block after the tile, at (u, q): what it held plus the sum over the tile's rows of the softmax weight
    (numerator over the row's sum of numerators) times the embedding entry. -/
theorem pay1_apply (v16 : FVec Ideal S1000x128 .f32) (v31 v36 : FVec Ideal S1000x512 .f32) (v47 : Vec Ideal S1x512x128 .f32)
    (u : Fin 512) (q : Fin 128) :
    k0_pay1 v16 v31 v36 v47 (ix3 (0 : Fin 1) u q)
      = v47 (ix3 (0 : Fin 1) u q) + ∑ r : Fin 1000,
          Ideal.div (Ideal.exp (v31 (ix2 r u) - v36 (ix2 r u))) (∑ u' : Fin 512, Ideal.exp (v31 (ix2 r u') - v36 (ix2 r u')))
            * v16 (ix2 r q) := by
  unfold k0_pay1
  rw [shapeCast_ab_1ab_apply, addf_apply, shapeCast_1ab_ab_apply, mm3_apply]
  congr 1
  refine Finset.sum_congr rfl fun r _ => ?_
  rw [truncf_apply, transpose_ix2_apply, truncf_apply, divf_apply, broadcastTo_a1_ab_apply, shapeCast_a_a1_apply]
  congr 1
  refine congrArg (Ideal.div _) ?_
  refine (Ideal.multiReduction_add_single _ 0x00000000#32 reduces_S1000x512_S1000 (.inl rfl) rfl (ix1 r)).trans ?_
  show ∑ k : Fin 512, _ = _
  refine Finset.sum_congr rfl fun k _ => ?_
  rw [lift_row]
  rfl

/-- THE TILE'S CONTRIBUTION: at (u, q) the block gains the sum over the tile's rows of the specification's node value,
    with the biases, cluster weights and pre-activations read off the six input blocks. -/
theorem tile_apply (prev : Vec Ideal S1x512x128 .f32) (u : Fin 512) (q : Fin 128) :
    tile x0 x1 x2 x3 x4 x5 prev (ix3 (0 : Fin 1) u q)
      = prev (ix3 (0 : Fin 1) u q) + ∑ r : Fin 1000,
          node (fun q => x5 (ix2 (0 : Fin 1) q)) (fun p => x3 (ix2 (0 : Fin 1) p)) (fun p u => x2 (ix2 p u)) (fun u => x4 (ix2 (0 : Fin 1) u))
            (fun q => pre x0 x1 r (colE q)) (fun p => pre x0 x1 r (colA p)) u q := by
  show k0_pay1 _ _ _ prev _ = _
  rw [pay1_apply]
  congr 1
  refine Finset.sum_congr rfl fun r _ => ?_
  simp only [pay4_apply, pay5_apply, pay6_apply]
  rfl

end Cert.KernelIdeal.PoolValue

end
-- ==== Proof.KernelBlocks.lean ====
/-
  The blocks the body reads at a grid point, as entries of the arrays the region finds.

  The grid has two cores of twenty-five tiles each; point t is tile t of the fifty. The first window's block at
  point t is rows 1000 t … 1000 t + 999 of the aggregated features; the five other input windows always stage their
  whole array (the weights and the biases).
-/
import proofs.«149685_j16475494547689_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.PoolValue

open Cert.KernelIdeal Cert.KernelIdeal.Gen

variable {F : FTy → Type} [FloatOps F]
variable (m : (ℓ : Loc nD τ sig) → Buf (Elt F) ℓ)

theorem nlt (t : Fin cfg0.N) : t.val < 50 := lt_of_lt_of_eq t.isLt (show cfg0.N = 50 from N_0)

theorem widx0 : ∀ t : Fin cfg0.N, win0_0.index t 0 = t.val ∧ win0_0.index t 1 = 0 :=
  (by decide +kernel : ∀ t : Fin grid0.N, win0_0.index t 0 = t.val ∧ win0_0.index t 1 = 0)

/-- Row r of tile t is row 1000 t + r of the aggregated features. -/
theorem iblk0_apply (c : Dev nD) (t : Fin cfg0.N) (r : Fin 1000) (k : Fin 128) :
    iblk m c 0 t (ix2 r k) = V m c main_v42 (ix2 (⟨t.val * 1000 + r.val, by have := nlt t; omega⟩ : Fin 50000) k) := by
  have hi := widx0 t
  unfold iblk
  rw [View.read_apply]
  show V m c main_v42 _ = V m c main_v42 _
  congr 1
  funext x; apply Fin.ext
  match x with
  | ⟨0, _⟩ => show win0_0.index t 0 * 1000 + 1 * r.val = t.val * 1000 + r.val; rw [hi.1]; omega
  | ⟨1, _⟩ => show win0_0.index t 1 * 128 + 1 * k.val = k.val; rw [hi.2]; omega

theorem widx1 : ∀ t : Fin cfg0.N, win0_1.index t 0 = 0 ∧ win0_1.index t 1 = 0 :=
  (by decide +kernel : ∀ t : Fin grid0.N, win0_1.index t 0 = 0 ∧ win0_1.index t 1 = 0)
/-- Window 1's block is its whole array at every point. -/
theorem iblk1_apply (c : Dev nD) (t : Fin cfg0.N) (a : Fin 128) (b : Fin 192) :
    iblk m c 1 t (ix2 a b) = V m c main_v43 (ix2 a b) := by
  have hi := widx1 t
  unfold iblk
  rw [View.read_apply]
  show V m c main_v43 _ = V m c main_v43 _
  congr 1
  funext x; apply Fin.ext
  match x with
  | ⟨0, _⟩ => show win0_1.index t 0 * 128 + 1 * a.val = a.val; rw [hi.1]; omega
  | ⟨1, _⟩ => show win0_1.index t 1 * 192 + 1 * b.val = b.val; rw [hi.2]; omega

theorem widx2 : ∀ t : Fin cfg0.N, win0_2.index t 0 = 0 ∧ win0_2.index t 1 = 0 :=
  (by decide +kernel : ∀ t : Fin grid0.N, win0_2.index t 0 = 0 ∧ win0_2.index t 1 = 0)
/-- Window 2's block is its whole array at every point. -/
theorem iblk2_apply (c : Dev nD) (t : Fin cfg0.N) (a : Fin 64) (b : Fin 512) :
    iblk m c 2 t (ix2 a b) = V m c main_arg6 (ix2 a b) := by
  have hi := widx2 t
  unfold iblk
  rw [View.read_apply]
  show V m c main_arg6 _ = V m c main_arg6 _
  congr 1
  funext x; apply Fin.ext
  match x with
  | ⟨0, _⟩ => show win0_2.index t 0 * 64 + 1 * a.val = a.val; rw [hi.1]; omega
  | ⟨1, _⟩ => show win0_2.index t 1 * 512 + 1 * b.val = b.val; rw [hi.2]; omega

theorem widx3 : ∀ t : Fin cfg0.N, win0_3.index t 0 = 0 ∧ win0_3.index t 1 = 0 :=
  (by decide +kernel : ∀ t : Fin grid0.N, win0_3.index t 0 = 0 ∧ win0_3.index t 1 = 0)
/-- Window 3's block is its whole array at every point. -/
theorem iblk3_apply (c : Dev nD) (t : Fin cfg0.N) (a : Fin 1) (b : Fin 64) :
    iblk m c 3 t (ix2 a b) = V m c main_v45 (ix2 a b) := by
  have hi := widx3 t
  unfold iblk
  rw [View.read_apply]
  show V m c main_v45 _ = V m c main_v45 _
  congr 1
  funext x; apply Fin.ext
  match x with
  | ⟨0, _⟩ => show win0_3.index t 0 * 1 + 1 * a.val = a.val; rw [hi.1]; omega
  | ⟨1, _⟩ => show win0_3.index t 1 * 64 + 1 * b.val = b.val; rw [hi.2]; omega

theorem widx4 : ∀ t : Fin cfg0.N, win0_4.index t 0 = 0 ∧ win0_4.index t 1 = 0 :=
  (by decide +kernel : ∀ t : Fin grid0.N, win0_4.index t 0 = 0 ∧ win0_4.index t 1 = 0)
/-- Window 4's block is its whole array at every point. -/
theorem iblk4_apply (c : Dev nD) (t : Fin cfg0.N) (a : Fin 1) (b : Fin 512) :
    iblk m c 4 t (ix2 a b) = V m c main_v46 (ix2 a b) := by
  have hi := widx4 t
  unfold iblk
  rw [View.read_apply]
  show V m c main_v46 _ = V m c main_v46 _
  congr 1
  funext x; apply Fin.ext
  match x with
  | ⟨0, _⟩ => show win0_4.index t 0 * 1 + 1 * a.val = a.val; rw [hi.1]; omega
  | ⟨1, _⟩ => show win0_4.index t 1 * 512 + 1 * b.val = b.val; rw [hi.2]; omega

theorem widx5 : ∀ t : Fin cfg0.N, win0_5.index t 0 = 0 ∧ win0_5.index t 1 = 0 :=
  (by decide +kernel : ∀ t : Fin grid0.N, win0_5.index t 0 = 0 ∧ win0_5.index t 1 = 0)
/-- Window 5's block is its whole array at every point. -/
theorem iblk5_apply (c : Dev nD) (t : Fin cfg0.N) (a : Fin 1) (b : Fin 128) :
    iblk m c 5 t (ix2 a b) = V m c main_v44 (ix2 a b) := by
  have hi := widx5 t
  unfold iblk
  rw [View.read_apply]
  show V m c main_v44 _ = V m c main_v44 _
  congr 1
  funext x; apply Fin.ext
  match x with
  | ⟨0, _⟩ => show win0_5.index t 0 * 1 + 1 * a.val = a.val; rw [hi.1]; omega
  | ⟨1, _⟩ => show win0_5.index t 1 * 128 + 1 * b.val = b.val; rw [hi.2]; omega

end Cert.KernelIdeal.PoolValue

end
-- ==== Proof.Edges.lean ====
/-
  The graph the two programs build from the edge list, as the three pieces of edge data of the specification.

  Both programs append one self-loop per node to the six hundred thousand given edges, and read the first row of
  the edge list as sources and the second as destinations. A destination is used as it stands: an edge lands on node
  n when its destination word, read as a signed integer, is n (anything else lands nowhere). A source is first
  shifted by the number of nodes when negative, and then clamped into the node range when a row is fetched. An
  edge's weight is the product of the inverse square roots of the in-degrees of its two endpoints (zero where the
  degree is not positive).
-/
import proofs.«149685_j16475494547689_2_alg».proof.Proof.RefRead
import Idealize.ShloMosaic.Lib.ValueIdx

noncomputable section

namespace Cert.Pool

open Idealize.ShloMosaic Idealize.ShloMosaic.ValueIdx Cert.ReferenceIdeal Cert.ReferenceIdeal.Gen

/-- The edge list as both programs receive it: two rows of six hundred thousand 32-bit words. -/
abbrev EdgeIx : Type := (⟨S2x600000, .i32⟩ : BufTy).Contents (Elt Ideal)

/-- Edge `e` lands on node `n`: its destination word, read signed, is `n`. -/
def hitOf (ei : EdgeIx) (e : Fin 650000) (n : Fin 50000) : Prop :=
  (Cert.ReferenceIdeal.ReadP.val_main_v42 (F := Ideal) ei (ix2 e (0 : Fin 1))).toInt = (n.val : ℤ)

instance (ei : EdgeIx) (e : Fin 650000) (n : Fin 50000) : Decidable (hitOf ei e n) := by
  unfold hitOf; infer_instance

/-- The node whose row edge `e` fetches: its shifted source word, read signed and clamped into the node range. -/
def srcOf (ei : EdgeIx) (e : Fin 650000) : Fin 50000 :=
  ⟨min (Cert.ReferenceIdeal.ReadP.val_main_v36 (F := Ideal) ei (ix2 e (0 : Fin 1))).toInt.toNat (50000 - 1), by omega⟩

/-- The weight of edge `e`. -/
def nrmOf (ei : EdgeIx) (e : Fin 650000) : EReal :=
  Cert.ReferenceIdeal.ReadP.val_main_v30 (F := Ideal) ei (ix1 e)

end Cert.Pool

end
-- ==== Proof.Rows.lean ====
/-
  ROWS OF A MATRIX GATHERED AND SCATTER-ADDED BY A COLUMN OF ROW INDICES.

  An operand matrix of N rows and C columns, and a column of E integer words (an E × 1 array), each naming a row.
  GATHER: the result is an E × C matrix whose row e is the operand's row "word e read as a signed integer and clamped
  into [0, N − 1]" (every start index of a gather is clamped so that the slice fits), so element (e, c) of the result is
  element (srcRow e, c) of the operand.
  SCATTER-ADD: E rows of updates (an E × C matrix) are added into an N × C operand, update row e into the operand's row
  "word e read as a signed integer", NOT clamped: an update whose word is negative or at least N lands outside the operand
  and is dropped. So element (n, c) of the result is the operand's element (n, c) plus the sum, over the update rows e whose
  word reads n, of the update's element (e, c). The update index (e, c) lands at the operand index (n, c') exactly when
  word e reads n and c = c'; this is the statement the sum is re-indexed through (the update indices that land at (n, c)
  are the image of the rows e whose word reads n under e ↦ (e, c)).
-/
import Idealize.ShloMosaic.PureOps.Ideal
import Idealize.ShloMosaic.Lib.ValueIdx

noncomputable section

open scoped BigOperators

namespace Cert.Pool

open Idealize.ShloMosaic Idealize.ShloMosaic.ValueIdx

/-! ## Gather of whole rows -/

/-- The dimension numbers of a gather of whole rows: operand N × C, start indices E × 1 (the index vector on axis 1,
    of length one, naming operand axis 0), result E × C; operand axis 0 is collapsed (slice size 1), operand axis 1 is
    the result's offset axis 1 (slice size C). Their conditions wf are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the row a gathered row e reads: its index word read signed and clamped into [0, N-1] -/
def srcRow {N E w : Nat} (hN : 0 < N) (idx : IVec ⟨2, ![E, 1]⟩ w) (e : Fin E) : Fin N :=
  ⟨min (idx (ix2 e (0 : Fin 1))).toInt.toNat (N - 1), by omega⟩

/-- THE ROW GATHER READ AT (e, c): the operand at row srcRow e, column c. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from
        (show (1 : Fin 2) ∉ [(0 : Fin 2)] by decide))]
    rw [hst]
    simp only [Nat.add_zero, Nat.zero_add]
    unfold GatherDims.offCoord
    rw [dif_pos (show (1 : Fin 2) ∈ (rowGatherDims N E C wf).sKept from
      (GatherDims.mem_sKept _ _).mpr ⟨(show (1 : Fin 2) ∉ [(0 : Fin 2)] by decide), List.not_mem_nil⟩)]
    rfl

/-! ## Scatter-add of whole rows -/

/-- The dimension numbers of a scatter of whole rows: operand N × C, scatter indices E × 1 (the index vector on axis 1,
    of length one, naming operand axis 0), updates E × C; the updates' axis 1 is the window axis, going to operand
    axis 1, and operand axis 0 is an inserted window axis. Their conditions wf are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update (e, c) starts at word e read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the index vector does not name, the window starts at 0. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (show (1 : Fin 2) ∉ [(0 : Fin 2)] by decide))]

/-- Operand axis 0 is an inserted window axis: the window coordinate there is 0. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg (show (0 : Fin 2) ∉ (rowScatterDims N E C wf).sKept from
    (show (0 : Fin 2) ∉ (List.finRange 2).filter (fun a => a ∉ [(0 : Fin 2)]) by decide))]

/-- On operand axis 1 the window coordinate of update (e, c) is c. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  rw [dif_pos (show (1 : Fin 2) ∈ (rowScatterDims N E C wf).sKept from
    (show (1 : Fin 2) ∈ (List.finRange 2).filter (fun a => a ∉ [(0 : Fin 2)]) by decide))]
  rfl

/-- WHERE AN UPDATE LANDS: update (e, c) lands at operand index (n, c') exactly when word e reads n and c = c'. -/
theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c')
      ↔ (idx (ix2 e (0 : Fin 1))).toInt = (n.val : ℤ) ∧ c = c' := by
  have h0 := rowScatter_start0 wf idx e c
  have h1 := rowScatter_start1 wf idx e c
  have w0 := rowScatter_window0 wf e c
  have w1 := rowScatter_window1 wf e c
  unfold ScatterDims.resultIdx?
  constructor
  · intro h
    split at h
    · rename_i hin
      have hf := Option.some.inj h
      have hin0 : 0 ≤ (rowScatterDims N E C wf).start (ix2 e c) idx 0
          + ((rowScatterDims N E C wf).window (ix2 e c) 0 : ℤ) := (hin 0).1
      have e0 : ((rowScatterDims N E C wf).start (ix2 e c) idx 0
          + ((rowScatterDims N E C wf).window (ix2 e c) 0 : ℤ)).toNat = n.val := congrArg Fin.val (congrFun hf 0)
      have e1 : ((rowScatterDims N E C wf).start (ix2 e c) idx 1
          + ((rowScatterDims N E C wf).window (ix2 e c) 1 : ℤ)).toNat = c'.val := congrArg Fin.val (congrFun hf 1)
      rw [h0, w0] at hin0 e0
      rw [h1, w1] at e1
      exact ⟨by omega, Fin.ext (by omega)⟩
    · exact absurd h (by simp)
  · rintro ⟨hn, rfl⟩
    have hin : ∀ a : Fin 2, 0 ≤ (rowScatterDims N E C wf).start (ix2 e c) idx a + ((rowScatterDims N E C wf).window (ix2 e c) a : ℤ)
        ∧ (rowScatterDims N E C wf).start (ix2 e c) idx a + ((rowScatterDims N E C wf).window (ix2 e c) a : ℤ)
          < ((⟨2, ![N, C]⟩ : Shape).size a : ℤ) := by
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, w0, hn]
        have := n.isLt
        omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1, w1]
        have := c.isLt
        omega
    rw [dif_pos hin]
    congr 1
    funext a
    refine Fin.ext ?_
    match a with
    | ⟨0, _⟩ =>
      show ((rowScatterDims N E C wf).start (ix2 e c) idx 0 + ((rowScatterDims N E C wf).window (ix2 e c) 0 : ℤ)).toNat = n.val
      rw [h0, w0, hn]
      simp
    | ⟨1, _⟩ =>
      show ((rowScatterDims N E C wf).start (ix2 e c) idx 1 + ((rowScatterDims N E C wf).window (ix2 e c) 1 : ℤ)).toNat = c.val
      rw [h1, w1]
      simp

/-- THE ROW SCATTER-ADD READ AT (n, c): the operand's element plus the sum, over the update rows e whose word reads n,
    of the update's element (e, c). -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine (Finset.sum_bij (fun e _ => ix2 e c) ?_ ?_ ?_ ?_).symm
  · intro e he
    rw [Finset.mem_filter] at he ⊢
    exact ⟨Finset.mem_univ _, (rowScatter_resultIdx wf idx e c n c).mpr ⟨he.2, rfl⟩⟩
  · intro e _ e' _ h
    exact congrFun h 0
  · intro j hj
    obtain ⟨a, b, rfl⟩ : ∃ (a : Fin E) (b : Fin C), j = ix2 a b := ⟨j 0, j 1, eq_ix2 j⟩
    rw [Finset.mem_filter] at hj
    obtain ⟨ha, rfl⟩ := (rowScatter_resultIdx wf idx a b n c).mp hj.2
    exact ⟨a, Finset.mem_filter.mpr ⟨Finset.mem_univ _, ha⟩, rfl⟩
  · intro e _
    rfl

end Cert.Pool

end
-- ==== Proof.KernelHost.lean ====
import proofs.«149685_j16475494547689_2_alg».proof.Proof.Gen.KernelIdeal.Frame
import proofs.«149685_j16475494547689_2_alg».proof.Proof.Edges
import proofs.«149685_j16475494547689_2_alg».proof.Proof.Rows
import proofs.«149685_j16475494547689_2_alg».proof.Proof.Spec
import proofs.«149685_j16475494547689_2_alg».proof.Proof.KernelPayload
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx Idealize.ShloMosaic.StableHlo

/-
  The arrays the region finds, entry by entry.

  Before the region the host builds the graph's edge data from the edge list, aggregates the raw features along
  the edges, lays the two weight matrices side by side, and writes each bias as a one-row matrix. The edge data are
  the same host operations as the reference's, so they are stated as the specification's edge data; an entry of
  the aggregated features is then the specification's aggregation of a feature column.
-/
namespace Cert.KernelIdeal.PoolValue

open Cert.KernelIdeal Cert.KernelIdeal.Gen Cert.Pool

variable (m : (ℓ : Loc nD τ sig) → Buf (Elt Ideal) ℓ)

/-- The launch contents of the arguments on core c. -/
abbrev aX (c : Dev nD) := m ((c.tc : Thread nD τ).loc main_arg0)
abbrev aE (c : Dev nD) := m ((c.tc : Thread nD τ).loc main_arg1)
abbrev aW1 (c : Dev nD) := m ((c.tc : Thread nD τ).loc main_arg2)
abbrev aB1 (c : Dev nD) := m ((c.tc : Thread nD τ).loc main_arg3)
abbrev aW2 (c : Dev nD) := m ((c.tc : Thread nD τ).loc main_arg4)
abbrev aB2 (c : Dev nD) := m ((c.tc : Thread nD τ).loc main_arg5)
abbrev aW3 (c : Dev nD) := m ((c.tc : Thread nD τ).loc main_arg6)
abbrev aB3 (c : Dev nD) := m ((c.tc : Thread nD τ).loc main_arg7)

set_option maxRecDepth 65536 in
set_option maxHeartbeats 16000000 in
/-- The aggregated features, as the host computes them: the rows fetched along the edges, each times its edge's
    weight, added up at the edge's destination. -/
theorem V_v42 (c : Dev nD) : (V m c main_v42 : S50000x128.Idx → EReal)
    = Host.scatterAdd (F := Ideal) (φ := .f32) scatter_S50000x128_S650000x1_S650000x128_1_0_0_1
        (Cert.ReferenceIdeal.ReadP.val_main_v41 (F := Ideal)) (Cert.ReferenceIdeal.ReadP.val_main_v42 (F := Ideal) (aE m c))
        (mulf (F := Ideal) (φ := .f32) (Host.gather gather_S50000x128_S650000x1_S650000x128_1_0_n_n_0_1_1128 (aX m c) (Cert.ReferenceIdeal.ReadP.val_main_v36 (F := Ideal) (aE m c)))
          (Cert.ReferenceIdeal.ReadP.val_main_v39 (F := Ideal) (aE m c))) := by
  dsimp only [Gen.V, Gen.V0]
  simp only [Gen.hostOps0, Gen.hostOps0_1, Gen.hostOps0_2, List.flatten_cons, List.flatten_nil, List.append_nil, List.cons_append, List.nil_append]
  after_results_simp
  dsimp only [TRef.toBuf, TRef.ofBuf, id]
  repeat rw [cast_eq]
  rfl

/-- The edge weights, spread along a row of the gathered features. -/
theorem v39_at (ei : EdgeIx) (e : Fin 650000) (k : Fin 128) : Cert.ReferenceIdeal.ReadP.val_main_v39 (F := Ideal) ei (ix2 e k) = nrmOf ei e := by
  rw [Cert.ReferenceIdeal.ReadP.val_main_v39_apply, Cert.ReferenceIdeal.ReadP.val_main_v38_apply]
  unfold nrmOf
  exact congrArg _ (funext fun a => Fin.ext (by match a with | ⟨0, _⟩ => rfl))

/-- AN ENTRY OF THE AGGREGATED FEATURES: the aggregation of feature column k at node n. -/
theorem xagg_apply (c : Dev nD) (n : Fin 50000) (k : Fin 128) :
    V m c main_v42 (ix2 n k) = agg (hitOf (aE m c)) (srcOf (aE m c)) (nrmOf (aE m c)) (fun r => aX m c (ix2 r k)) n := by
  refine (congrFun (V_v42 m c) (ix2 n k)).trans ?_
  unfold Host.scatterAdd
  show Ideal.hostScatterAdd (rowScatterDims 50000 650000 128 scatter_S50000x128_S650000x1_S650000x128_1_0_0_1_wf)
    (Cert.ReferenceIdeal.ReadP.val_main_v41 (F := Ideal)) (Cert.ReferenceIdeal.ReadP.val_main_v42 (F := Ideal) (aE m c)) _ (ix2 n k) = _
  rw [scatterAdd_rows_apply]
  have h41 : Cert.ReferenceIdeal.ReadP.val_main_v41 (F := Ideal) (ix2 n k) = 0 := by
    rw [Cert.ReferenceIdeal.ReadP.val_main_v41_apply, Cert.ReferenceIdeal.ReadP.val_main_cst_8_apply]
    exact Ideal.ofBits_zero_f32
  rw [h41, zero_add]
  unfold agg
  refine Finset.sum_congr ?_ fun e _ => ?_
  · ext e
    simp only [Finset.mem_filter, Finset.mem_univ, true_and]
    rfl
  · rw [mulf_apply, v39_at]
    have hg := gather_rows_apply (α := EReal) (by decide : 0 < 50000) gather_S50000x128_S650000x1_S650000x128_1_0_n_n_0_1_1128_wf
      (aX m c) (Cert.ReferenceIdeal.ReadP.val_main_v36 (F := Ideal) (aE m c)) e k
    exact congrArg (fun z : EReal => z * nrmOf (aE m c) e) hg

set_option maxHeartbeats 4000000 in
/-- The two weight matrices side by side. -/
theorem V_v43 (c : Dev nD) : (V m c main_v43 : S128x192.Idx → EReal)
    = concatenate S128x192 1 [⟨S128x128, aW1 m c⟩, ⟨S128x64, aW2 m c⟩] concatenates_S128x128_S128x64_S128x192_d1 := by
  dsimp only [Gen.V, Gen.V0]
  simp only [Gen.hostOps0, Gen.hostOps0_1, Gen.hostOps0_2, List.flatten_cons, List.flatten_nil, List.append_nil, List.cons_append, List.nil_append]
  after_results_simp
  rfl

/-- Column q of the first matrix inside the two side by side. -/
theorem wcatE_apply (c : Dev nD) (k : Fin 128) (q : Fin 128) : V m c main_v43 (ix2 k (colE q)) = aW1 m c (ix2 k q) := by
  refine (congrFun (V_v43 m c) (ix2 k (colE q))).trans ?_
  refine concatenate_pair_apply_left (1 : Fin 2) (aW1 m c) (aW2 m c) concatenates_S128x128_S128x64_S128x192_d1 (ix2 k (colE q)) rfl (ix2 k q) ?_
  intro b
  match b with
  | ⟨0, _⟩ => rfl
  | ⟨1, _⟩ => show q.val = 0 + q.val; omega

/-- Column p of the second matrix inside the two side by side. -/
theorem wcatA_apply (c : Dev nD) (k : Fin 128) (p : Fin 64) : V m c main_v43 (ix2 k (colA p)) = aW2 m c (ix2 k p) := by
  refine (congrFun (V_v43 m c) (ix2 k (colA p))).trans ?_
  refine concatenate_pair_apply_right (1 : Fin 2) (aW1 m c) (aW2 m c) concatenates_S128x128_S128x64_S128x192_d1 (ix2 k (colA p)) rfl rfl (ix2 k p) ?_ ?_
  · intro b hb
    match b with
    | ⟨0, _⟩ => rfl
    | ⟨1, _⟩ => exact absurd rfl hb
  · show p.val + 128 = 128 + p.val; omega

set_option maxHeartbeats 4000000 in
theorem V_v44 (c : Dev nD) : (V m c main_v44 : S1x128.Idx → EReal) = shapeCast S1x128 (aB1 m c) shapeCasts_S128_S1x128 := by
  dsimp only [Gen.V, Gen.V0]
  simp only [Gen.hostOps0, Gen.hostOps0_1, Gen.hostOps0_2, List.flatten_cons, List.flatten_nil, List.append_nil, List.cons_append, List.nil_append]
  after_results_simp
  rfl
set_option maxHeartbeats 4000000 in
theorem V_v45 (c : Dev nD) : (V m c main_v45 : S1x64.Idx → EReal) = shapeCast S1x64 (aB2 m c) shapeCasts_S64_S1x64 := by
  dsimp only [Gen.V, Gen.V0]
  simp only [Gen.hostOps0, Gen.hostOps0_1, Gen.hostOps0_2, List.flatten_cons, List.flatten_nil, List.append_nil, List.cons_append, List.nil_append]
  after_results_simp
  rfl
set_option maxHeartbeats 4000000 in
theorem V_v46 (c : Dev nD) : (V m c main_v46 : S1x512.Idx → EReal) = shapeCast S1x512 (aB3 m c) shapeCasts_S512_S1x512 := by
  dsimp only [Gen.V, Gen.V0]
  simp only [Gen.hostOps0, Gen.hostOps0_1, Gen.hostOps0_2, List.flatten_cons, List.flatten_nil, List.append_nil, List.cons_append, List.nil_append]
  after_results_simp
  rfl

/-- The biases written as one-row matrices. -/
theorem b1_apply (c : Dev nD) (q : Fin 128) : V m c main_v44 (ix2 (0 : Fin 1) q) = aB1 m c (ix1 q) :=
  (congrFun (V_v44 m c) (ix2 (0 : Fin 1) q)).trans (shapeCast_a_1a_apply _ _ _ _)
theorem b2_apply (c : Dev nD) (p : Fin 64) : V m c main_v45 (ix2 (0 : Fin 1) p) = aB2 m c (ix1 p) :=
  (congrFun (V_v45 m c) (ix2 (0 : Fin 1) p)).trans (shapeCast_a_1a_apply _ _ _ _)
theorem b3_apply (c : Dev nD) (u : Fin 512) : V m c main_v46 (ix2 (0 : Fin 1) u) = aB3 m c (ix1 u) :=
  (congrFun (V_v46 m c) (ix2 (0 : Fin 1) u)).trans (shapeCast_a_1a_apply _ _ _ _)

end Cert.KernelIdeal.PoolValue

end
-- ==== Proof.Laws.lean ====
/-
  Real-number laws used by the value proof.

  Values live in the extended reals, where addition and multiplication are commutative and
  associative but multiplication does not distribute over addition once an infinity is present.
  A value "is real" when it is the image of a real number; real values are closed under
  0, +, *, max and finite sums, and a finite sum of images of reals is the image of the real sum.

  With every factor real, aggregation is linear: for edge features a e k, matrix column w k and
  edge weights n e,
      Σ_e (Σ_k a e k · w k) · n e  =  Σ_k (Σ_e a e k · n e) · w k,
  which is distributivity and an exchange of the two finite sums, carried out in ℝ.

  The remaining laws are about index bookkeeping in any commutative additive monoid:
  a sum over N = A·B indices splits into A tiles of B consecutive indices (n = t·B + r);
  a running accumulator that restarts from z at every multiple of P and otherwise adds the next
  term equals z plus the sum of the terms from the last multiple of P up to the current index;
  and the sum over one full block [c·P, c·P + (P-1)] is the sum of g (c·P + j) over j < P.
-/
import Idealize.ShloMosaic.PureOps.Ideal

open scoped BigOperators

noncomputable section

namespace Cert.Pool

/-- a value that is a real number -/
def IsReal (v : EReal) : Prop := ∃ r : ℝ, v = (r : EReal)

theorem IsReal.zero : IsReal 0 := ⟨0, by simp⟩

theorem IsReal.coe (r : ℝ) : IsReal (r : EReal) := ⟨r, rfl⟩

theorem IsReal.add {a b : EReal} (ha : IsReal a) (hb : IsReal b) : IsReal (a + b) := by
  obtain ⟨x, rfl⟩ := ha
  obtain ⟨y, rfl⟩ := hb
  exact ⟨x + y, by rw [EReal.coe_add]⟩

theorem IsReal.mul {a b : EReal} (ha : IsReal a) (hb : IsReal b) : IsReal (a * b) := by
  obtain ⟨x, rfl⟩ := ha
  obtain ⟨y, rfl⟩ := hb
  exact ⟨x * y, by rw [EReal.coe_mul]⟩

/-- the maximum of two values is one of them -/
theorem IsReal.max {a b : EReal} (ha : IsReal a) (hb : IsReal b) : IsReal (max a b) := by
  rcases le_total a b with h | h
  · rw [max_eq_right h]; exact hb
  · rw [max_eq_left h]; exact ha

theorem IsReal.sum {ι : Type*} (S : Finset ι) (f : ι → EReal) (h : ∀ i ∈ S, IsReal (f i)) :
    IsReal (∑ i ∈ S, f i) := by
  classical
  induction S using Finset.induction_on with
  | empty => simpa using IsReal.zero
  | insert a s has ih =>
    rw [Finset.sum_insert has]
    exact IsReal.add (h a (Finset.mem_insert_self a s))
      (ih (fun i hi => h i (Finset.mem_insert_of_mem hi)))

/-- the inclusion of ℝ commutes with finite sums -/
theorem coe_sum {ι : Type*} (S : Finset ι) (f : ι → ℝ) :
    (∑ i ∈ S, ((f i : ℝ) : EReal)) = ((∑ i ∈ S, f i : ℝ) : EReal) := by
  classical
  induction S using Finset.induction_on with
  | empty => simp
  | insert a s has ih =>
    rw [Finset.sum_insert has, Finset.sum_insert has, ih, EReal.coe_add]

/-- LINEARITY: aggregating the rows of a product is the product of the aggregated rows,
when all factors are real. -/
theorem agg_linear {ε κ : Type*} [Fintype κ] (S : Finset ε) (a : ε → κ → EReal) (w : κ → EReal)
    (n : ε → EReal)
    (ha : ∀ e k, IsReal (a e k)) (hw : ∀ k, IsReal (w k)) (hn : ∀ e, IsReal (n e)) :
    ∑ e ∈ S, (∑ k, a e k * w k) * n e = ∑ k, (∑ e ∈ S, a e k * n e) * w k := by
  -- pick real witnesses for every factor
  choose a' ha' using ha
  choose w' hw' using hw
  choose n' hn' using hn
  -- each summand on either side is the image of the corresponding real expression
  have e1 : ∀ e, (∑ k, a e k * w k) * n e = ((∑ k, a' e k * w' k) * n' e : ℝ) := by
    intro e
    have : ∀ k, a e k * w k = ((a' e k * w' k : ℝ) : EReal) := by
      intro k; rw [ha', hw', EReal.coe_mul]
    simp only [this]
    rw [coe_sum, hn', EReal.coe_mul]
  have e2 : ∀ k, (∑ e ∈ S, a e k * n e) * w k = ((∑ e ∈ S, a' e k * n' e) * w' k : ℝ) := by
    intro k
    have : ∀ e, a e k * n e = ((a' e k * n' e : ℝ) : EReal) := by
      intro e; rw [ha', hn', EReal.coe_mul]
    simp only [this]
    rw [coe_sum, hw', EReal.coe_mul]
  simp only [e1, e2]
  rw [coe_sum, coe_sum]
  congr 1
  -- in ℝ: distribute, swap the two sums, and compare term by term
  simp only [Finset.sum_mul]
  rw [Finset.sum_comm]
  refine Finset.sum_congr rfl (fun k _ => Finset.sum_congr rfl (fun e _ => ?_))
  ring

/-- a sum over N = A·B indices, tile by tile -/
theorem sum_fin_tiles {M : Type*} [AddCommMonoid M] {N : ℕ} (A B : ℕ) (h : A * B = N)
    (f : Fin N → M) :
    ∑ n : Fin N, f n = ∑ t : Fin A, ∑ r : Fin B, f ⟨t.val * B + r.val, by
      have h1 := t.isLt
      have h2 := r.isLt
      rw [← h]
      calc t.val * B + r.val < t.val * B + B := Nat.add_lt_add_left h2 _
        _ = (t.val + 1) * B := by ring
        _ ≤ A * B := Nat.mul_le_mul_right B h1⟩ := by
  subst h
  -- (t, r) ↦ r + B·t is a bijection Fin A × Fin B ≃ Fin (A·B)
  rw [← Fintype.sum_prod_type']
  refine (Fintype.sum_equiv finProdFinEquiv _ _ ?_).symm
  rintro ⟨t, r⟩
  congr 1
  apply Fin.ext
  simp [finProdFinEquiv]
  ring

/-- a running accumulator that is reset to z + g n whenever P ∣ n and otherwise adds g n to its
previous value, in closed form -/
theorem acc_closed {M : Type*} [AddCommMonoid M] (P : ℕ) (hP : 0 < P) (z : M) (g acc : ℕ → M)
    (hA : ∀ n, n % P = 0 → acc n = z + g n)
    (hB : ∀ n, n % P ≠ 0 → acc n = acc (n - 1) + g n) (n : ℕ) :
    acc n = z + ∑ i ∈ Finset.Icc (n / P * P) n, g i := by
  induction n with
  | zero =>
    rw [hA 0 (Nat.zero_mod P)]
    simp
  | succ m ih =>
    by_cases hm : (m + 1) % P = 0
    · -- a reset: the block starts at m + 1 itself
      rw [hA _ hm]
      have hd : (m + 1) / P * P = m + 1 := Nat.div_mul_cancel (Nat.dvd_of_mod_eq_zero hm)
      rw [hd, Finset.Icc_self, Finset.sum_singleton]
    · -- no reset: m and m + 1 lie in the same block, which grows by one term
      rw [hB _ hm, Nat.add_sub_cancel, ih]
      have hdiv : (m + 1) / P = m / P := by
        rw [Nat.succ_div, if_neg, Nat.add_zero]
        intro hd
        exact hm (Nat.mod_eq_zero_of_dvd hd)
      rw [hdiv]
      have hle : m / P * P ≤ m + 1 := le_trans (Nat.div_mul_le_self m P) (Nat.le_succ m)
      rw [Finset.sum_Icc_succ_top hle, add_assoc]

/-- the sum over one full block of P consecutive indices starting at c·P -/
theorem sum_Icc_block {M : Type*} [AddCommMonoid M] (P c : ℕ) (hP : 0 < P) (g : ℕ → M) :
    ∑ i ∈ Finset.Icc (c * P) (c * P + (P - 1)), g i = ∑ j ∈ Finset.range P, g (c * P + j) := by
  have hI : Finset.Icc (c * P) (c * P + (P - 1)) = Finset.Ico (c * P) (c * P + P) := by
    generalize c * P = k
    ext i
    simp only [Finset.mem_Icc, Finset.mem_Ico]
    omega
  rw [hI, Finset.sum_Ico_eq_sum_range, Nat.add_sub_cancel_left]

end Cert.Pool

end
-- ==== Proof.Bridge.lean ====
/-
  From the laws to the two facts the value proof uses.

  First: the two ways of forming a node's pre-activation entry agree. Aggregating the products
  Σ_k x (src e) k · W k c along the edges landing on a node, each edge weighted by its real weight,
  equals multiplying the aggregated features by the weight column; this is the linearity law with
  a e k := x (src e) k, and it needs the features, the weights and the edge weights to be real.

  Second: the sum over all 50000 nodes is what two running accumulators hold at the end of their
  runs. The 50 tiles of 1000 consecutive nodes have tile sums g 0, …, g 49; the accumulator restarts
  at tiles 0 and 25 and otherwise adds the next tile sum, so after tile 24 it holds g 0 + … + g 24
  and after tile 49 it holds g 25 + … + g 49. Their sum is Σ_t g t, which is the sum over all nodes
  split tile by tile.

  Third: the reciprocal square root of a positive real number is a real number.
-/
import proofs.«149685_j16475494547689_2_alg».proof.Proof.Laws
import proofs.«149685_j16475494547689_2_alg».proof.Proof.Spec

open scoped BigOperators

noncomputable section

namespace Cert.Pool

open Idealize.ShloMosaic

/-- multiply-then-aggregate equals aggregate-then-multiply when features, weights and edge
weights are real -/
theorem preR_eq_preK {C : Nat} (hit : Fin 650000 → Fin 50000 → Prop) [∀ e n, Decidable (hit e n)]
    (src : Fin 650000 → Fin 50000) (nrm : Fin 650000 → EReal) (x : Fin 50000 → Fin 128 → EReal)
    (W : Fin 128 → Fin C → EReal) (hx : ∀ r k, IsReal (x r k)) (hW : ∀ k c, IsReal (W k c))
    (hn : ∀ e, IsReal (nrm e)) (n : Fin 50000) (c : Fin C) :
    preR hit src nrm x W n c = preK hit src nrm x W n c := by
  unfold preR preK agg
  exact agg_linear (Finset.univ.filter (fun e => hit e n)) (fun e k => x (src e) k)
    (fun k => W k c) nrm (fun e k => hx (src e) k) (fun k => hW k c) hn

/-- a sum over 50000 nodes computed as two running accumulators of 25 tiles of 1000 nodes each.
acc is only specified below 50. -/
theorem pooled_tiled {M : Type*} [AddCommMonoid M] (f : Fin 50000 → M) (g acc : ℕ → M)
    (hg : ∀ t (ht : t < 50), g t = ∑ r : Fin 1000, f ⟨t * 1000 + r.val, by omega⟩)
    (hA : ∀ n, n < 50 → n % 25 = 0 → acc n = g n)
    (hB : ∀ n, n < 50 → n % 25 ≠ 0 → acc n = acc (n - 1) + g n) :
    acc 24 + acc 49 = ∑ n : Fin 50000, f n := by
  -- closed form below 50: the accumulator holds the sum of g from the last multiple of 25
  have key : ∀ n, n < 50 → acc n = ∑ i ∈ Finset.Icc (n / 25 * 25) n, g i := by
    intro n
    induction n with
    | zero =>
      intro h
      rw [hA 0 h (by norm_num)]
      simp
    | succ m ih =>
      intro h
      have hm : m < 50 := by omega
      by_cases hmod : (m + 1) % 25 = 0
      · rw [hA _ h hmod]
        have hd : (m + 1) / 25 * 25 = m + 1 := by omega
        rw [hd, Finset.Icc_self, Finset.sum_singleton]
      · rw [hB _ h hmod, Nat.add_sub_cancel, ih hm]
        have hdiv : (m + 1) / 25 = m / 25 := by omega
        rw [hdiv]
        have hle : m / 25 * 25 ≤ m + 1 := by omega
        rw [Finset.sum_Icc_succ_top hle]
  -- the two accumulators at the end of their blocks
  have h24 : acc 24 = ∑ j ∈ Finset.range 25, g j := by
    rw [key 24 (by norm_num)]
    have e : Finset.Icc (24 / 25 * 25) 24 = Finset.Icc (0 * 25) (0 * 25 + (25 - 1)) := by
      norm_num
    rw [e, sum_Icc_block 25 0 (by norm_num) g]
    simp
  have h49 : acc 49 = ∑ j ∈ Finset.range 25, g (25 + j) := by
    rw [key 49 (by norm_num)]
    have e : Finset.Icc (49 / 25 * 25) 49 = Finset.Icc (1 * 25) (1 * 25 + (25 - 1)) := by
      norm_num
    rw [e, sum_Icc_block 25 1 (by norm_num) g]
  -- together they are the sum of g over all 50 tiles
  have h50 : acc 24 + acc 49 = ∑ t ∈ Finset.range 50, g t := by
    rw [h24, h49]
    exact (Finset.sum_range_add g 25 25).symm
  rw [h50, ← Fin.sum_univ_eq_sum_range g 50, sum_fin_tiles 50 1000 (by norm_num) f]
  refine Finset.sum_congr rfl (fun t _ => ?_)
  exact hg t.val t.isLt

/-- the reciprocal square root of a positive real is a real number -/
theorem rsqrt_isReal_of_pos {r : ℝ} (hr : 0 < r) : IsReal (Ideal.rsqrt (r : EReal)) := by
  rw [Ideal.rsqrt_coe, if_neg (not_lt.mpr hr.le), if_neg hr.ne']
  exact ⟨_, rfl⟩

end Cert.Pool

end
-- ==== Proof.KernelAcc.lean ====
/-
  The output block point by point, and the two cores' totals.

  After tile t the block holds, at (u, q), the tile's contribution (the sum over the tile's thousand nodes of the
  node's value) added to zero when t is the first tile of its core, and to what tile t − 1 left otherwise. So after
  the last tile of a core the block holds the sum over the core's twenty-five thousand nodes, and the two cores'
  blocks add up to the sum over all fifty thousand nodes: the specification's pooled value, with the pre-activations
  formed by aggregating first.
-/
import proofs.«149685_j16475494547689_2_alg».proof.Proof.KernelPieces
import proofs.«149685_j16475494547689_2_alg».proof.Proof.KernelPayload
import proofs.«149685_j16475494547689_2_alg».proof.Proof.KernelBlocks
import proofs.«149685_j16475494547689_2_alg».proof.Proof.KernelHost
import proofs.«149685_j16475494547689_2_alg».proof.Proof.Bridge

set_option maxRecDepth 16384

noncomputable section

open Idealize.ShloMosaic Idealize.ShloMosaic.TcCoe Idealize.SL.Sem Idealize.ShloMosaic.ValueIdx

namespace Cert.KernelIdeal.PoolValue

open Cert.KernelIdeal Cert.KernelIdeal.Gen Cert.Pool

variable (m : (ℓ : Loc nD τ sig) → Buf (Elt Ideal) ℓ)

/-- The first tile of a core: its contribution over the zero block. -/
theorem outsAt_A (c : Dev nD) (t : Fin cfg0.N) (h0 : t.val % 25 = 0) :
    outsAt0 m c t.val t.isLt = tile (iblk m c 0 t) (iblk m c 1 t) (iblk m c 2 t) (iblk m c 3 t) (iblk m c 4 t) (iblk m c 5 t) (k0_pay2 (F := Ideal)) :=
  (outsAt0_A m c t h0).trans
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t))

/-- Any other tile: its contribution over what the tile before left. -/
theorem outsAt_B (c : Dev nD) (t : Fin cfg0.N) (h0 : ¬t.val % 25 = 0) :
    outsAt0 m c t.val t.isLt
      = tile (iblk m c 0 t) (iblk m c 1 t) (iblk m c 2 t) (iblk m c 3 t) (iblk m c 4 t) (iblk m c 5 t) (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)))

/-- A node's value depends only on its parameters and pre-activation rows. -/
theorem node_congr {b1 b1' : Fin 128 → EReal} {b2 b2' : Fin 64 → EReal} {W3 W3' : Fin 64 → Fin 512 → EReal} {b3 b3' : Fin 512 → EReal}
    {p1 p1' : Fin 128 → EReal} {p2 p2' : Fin 64 → EReal} (h1 : b1 = b1') (h2 : b2 = b2') (h3 : W3 = W3') (h4 : b3 = b3')
    (h5 : p1 = p1') (h6 : p2 = p2') (u : Fin 512) (q : Fin 128) :
    node b1 b2 W3 b3 p1 p2 u q = node b1' b2' W3' b3' p1' p2' u q := by
  subst h1 h2 h3 h4 h5 h6; rfl

/-- One node's value at (u, q), with the pre-activations formed by aggregating first. -/
def nodeVal (c : Dev nD) (u : Fin 512) (q : Fin 128) (n : Fin 50000) : EReal :=
  node (fun q => aB1 m c (ix1 q)) (fun p => aB2 m c (ix1 p)) (fun p u => aW3 m c (ix2 p u)) (fun u => aB3 m c (ix1 u)) ((preK (hitOf (aE m c)) (srcOf (aE m c)) (nrmOf (aE m c)) (fun r k => aX m c (ix2 r k)) (fun k q => aW1 m c (ix2 k q))) n) ((preK (hitOf (aE m c)) (srcOf (aE m c)) (nrmOf (aE m c)) (fun r k => aX m c (ix2 r k)) (fun k p => aW2 m c (ix2 k p))) n) u q

/-- Tile t's contribution at (u, q) is the sum of the values of its thousand nodes. -/
theorem contrib_eq (c : Dev nD) (t : Fin cfg0.N) (u : Fin 512) (q : Fin 128) :
    (∑ r : Fin 1000,
        node (fun q => iblk m c 5 t (ix2 (0 : Fin 1) q)) (fun p => iblk m c 3 t (ix2 (0 : Fin 1) p)) (fun p u => iblk m c 2 t (ix2 p u))
          (fun u => iblk m c 4 t (ix2 (0 : Fin 1) u))
          (fun q => pre (iblk m c 0 t) (iblk m c 1 t) r (colE q)) (fun p => pre (iblk m c 0 t) (iblk m c 1 t) r (colA p)) u q)
      = ∑ r : Fin 1000, nodeVal m c u q ⟨t.val * 1000 + r.val, by have := nlt t; omega⟩ := by
  refine Finset.sum_congr rfl fun r _ => ?_
  unfold nodeVal pre preK
  simp only [iblk0_apply, iblk1_apply, iblk2_apply, iblk3_apply, iblk4_apply, iblk5_apply]
  exact node_congr (funext fun q' => b1_apply m c q') (funext fun p' => b2_apply m c p')
    (funext fun p' => funext fun u' => congrFun (V_main_arg6 m c) (ix2 p' u')) (funext fun u' => b3_apply m c u')
    (funext fun q' => Finset.sum_congr rfl fun x _ => congrArg₂ (fun a b : EReal => a * b) (xagg_apply m c _ x) (wcatE_apply m c x q'))
    (funext fun p' => Finset.sum_congr rfl fun x _ => congrArg₂ (fun a b : EReal => a * b) (xagg_apply m c _ x) (wcatA_apply m c x p'))
    u q

/-- The block's entry at (u, q) after point n, for every point below fifty (zero beyond). -/
def accAt (c : Dev nD) (u : Fin 512) (q : Fin 128) (n : ℕ) : EReal :=
  if h : n < cfg0.N then outsAt0 m c n h (ix3 (0 : Fin 1) u q) else 0
/-- Tile n's contribution at (u, q) (zero beyond the fifty tiles). -/
def contribAt (c : Dev nD) (u : Fin 512) (q : Fin 128) (n : ℕ) : EReal :=
  if h : n < 50 then ∑ r : Fin 1000, nodeVal m c u q ⟨n * 1000 + r.val, by omega⟩ else 0

theorem N50 : cfg0.N = 50 := N_0

theorem pay2_zero (u : Fin 512) (q : Fin 128) : k0_pay2 (F := Ideal) (ix3 (0 : Fin 1) u q) = 0 := by
  unfold k0_pay2
  rw [shapeCast_ab_1ab_apply, broadcast_apply]
  exact Ideal.ofBits_zero_f32

theorem acc_A (c : Dev nD) (u : Fin 512) (q : Fin 128) (n : ℕ) (hn : n < 50) (h0 : n % 25 = 0) :
    accAt m c u q n = contribAt m c u q n := by
  have hN : n < cfg0.N := by rw [N50]; exact hn
  unfold accAt contribAt
  rw [dif_pos hN, dif_pos hn]
  have := outsAt_A m c ⟨n, hN⟩ h0
  rw [this, tile_apply, contrib_eq, pay2_zero, zero_add]

theorem acc_B (c : Dev nD) (u : Fin 512) (q : Fin 128) (n : ℕ) (hn : n < 50) (h0 : n % 25 ≠ 0) :
    accAt m c u q n = accAt m c u q (n - 1) + contribAt m c u q n := by
  have hN : n < cfg0.N := by rw [N50]; exact hn
  have hN1 : n - 1 < cfg0.N := by rw [N50]; omega
  unfold accAt contribAt
  rw [dif_pos hN, dif_pos hn, dif_pos hN1]
  have := outsAt_B m c ⟨n, hN⟩ h0
  rw [this, tile_apply, contrib_eq]

/-- THE TWO CORES' TOTALS add up to the pooled value. -/
theorem cores_sum (c : Dev nD) (u : Fin 512) (q : Fin 128) :
    accAt m c u q 24 + accAt m c u q 49
      = pooled (fun q => aB1 m c (ix1 q)) (fun p => aB2 m c (ix1 p)) (fun p u => aW3 m c (ix2 p u)) (fun u => aB3 m c (ix1 u)) (preK (hitOf (aE m c)) (srcOf (aE m c)) (nrmOf (aE m c)) (fun r k => aX m c (ix2 r k)) (fun k q => aW1 m c (ix2 k q))) (preK (hitOf (aE m c)) (srcOf (aE m c)) (nrmOf (aE m c)) (fun r k => aX m c (ix2 r k)) (fun k p => aW2 m c (ix2 k p))) u q := by
  have h := pooled_tiled (nodeVal m c u q) (contribAt m c u q) (accAt m c u q)
    (fun t ht => by unfold contribAt; rw [dif_pos ht])
    (fun n hn h0 => acc_A m c u q n hn h0) (fun n hn h0 => acc_B m c u q n hn h0)
  rw [h]
  rfl

end Cert.KernelIdeal.PoolValue

end
-- ==== Proof.KernelFinal.lean ====
/-
  The kernel's result.

  The output array has one 512 × 128 block per core; it is written back once per core, after the core's last tile,
  with what the block then holds: the core's total. After the region the host adds the two blocks entry by entry,
  starting from zero. So the result at (u, q) is the two cores' totals added: the pooled value.
-/
import proofs.«149685_j16475494547689_2_alg».proof.Proof.KernelAcc
import Idealize.ShloMosaic.Lib.IdealHost

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.PoolValue

open Cert.KernelIdeal Cert.KernelIdeal.Gen Cert.Pool

variable (m : (ℓ : Loc nD τ sig) → Buf (Elt Ideal) ℓ) (ρ : Dev nD → PrngReg)

theorem outsAt_congr (c : Dev nD) {n n' : ℕ} (h : n = n') (hn : n < cfg0.N) (hn' : n' < cfg0.N) :
    outsAt0 m c n hn = outsAt0 m c n' hn' := by
  subst h; rfl

/-- What the output array ends holding: block cc is what core cc's last tile left. -/
def outFn (c : Dev nD) : S2x512x128.Idx → EReal :=
  fun (i : S2x512x128.Idx) =>
    outsAt0 m c ((i 0).val * 25 + 24) (by have h : (i 0).val < 2 := (i 0).isLt; rw [N50]; omega) (ix3 (0 : Fin 1) (i 1) (i 2))
/-- The same, as contents of the output array's buffer. -/
abbrev outArr (c : Dev nD) : Buf (Elt Ideal) ((c.tc : Thread nD τ).loc main_v47) := outFn m c

theorem widx6 : ∀ t : Fin cfg0.N, win0_6.index t 0 = t.val / 25 ∧ win0_6.index t 1 = 0 ∧ win0_6.index t 2 = 0 :=
  (by decide +kernel : ∀ t : Fin grid0.N, win0_6.index t 0 = t.val / 25 ∧ win0_6.index t 1 = 0 ∧ win0_6.index t 2 = 0)

/-- The write-back after a core's last tile writes that core's block of `outArr`. -/
theorem flushed_eq (c : Dev nD) (t : Fin cfg0.N) (hf : (cfg0.win 6).flush t = true) :
    (dats m 0 c).flushed 6 t = ((cfg0.win 6).blk t).view.read (Elt Ideal) (outArr m c) := by
  have h24 : t.val % 25 = 24 := (flush0_6 t).mp hf
  have hi := widx6 t
  have hN := nlt t
  show (cfg0.win 6).cut (grid0.coords t) ((dats m 0 c).after 6 t) = _
  rw [after0_6]
  funext y
  rw [View.read_apply]
  show outsAt0 m c t.val t.isLt y = outFn m c (((cfg0.win 6).blk t).view.emb y)
  unfold outFn
  have hy0 : (y 0).val = 0 := by have h : (y 0).val < 1 := (y 0).isLt; omega
  have e0 : ((((cfg0.win 6).blk t).view.emb y) 0).val = t.val / 25 := by
    show win0_6.index t 0 * 1 + 1 * (y 0).val = _
    rw [hi.1, hy0]; omega
  have e1 : ((((cfg0.win 6).blk t).view.emb y) 1).val = (y 1).val := by
    show win0_6.index t 1 * 512 + 1 * (y 1).val = _
    rw [hi.2.1]; omega
  have e2 : ((((cfg0.win 6).blk t).view.emb y) 2).val = (y 2).val := by
    show win0_6.index t 2 * 128 + 1 * (y 2).val = _
    rw [hi.2.2]; omega
  have hidx : (ix3 (0 : Fin 1) ((((cfg0.win 6).blk t).view.emb y) 1) ((((cfg0.win 6).blk t).view.emb y) 2) : S1x512x128.Idx) = y := by
    funext a; apply Fin.ext
    match a with
    | ⟨0, _⟩ => exact hy0.symm
    | ⟨1, _⟩ => exact e1
    | ⟨2, _⟩ => exact e2
  dsimp only
  rw [hidx]
  exact congrFun (outsAt_congr m c (by rw [e0]; omega) _ _) y

/-- An index of the output array is in point t's block iff each coordinate is in the block's range on its axis. -/
theorem mem_blk6 (t : Fin cfg0.N) (i : S2x512x128.Idx) :
    i ∈ ((cfg0.win 6).blk t).view.set ↔ ∀ a : Fin 3, win0_6.index t a * S1x512x128.size a ≤ (i a).val ∧ (i a).val < win0_6.index t a * S1x512x128.size a + S1x512x128.size a := by
  show i ∈ ((View.whole main_v47).slice (win0_6.rect t)).set ↔ _
  rw [View.set_slice_whole, Rect.mem_set_unit]
  exact Iff.rfl

/-- The output array after the run. -/
theorem final6 (c : Dev nD) : (dats m 0 c).arrAt 6 cfg0.N = outArr m c :=
  (dats m 0 c).arrAt_eq_of_cover 6 (outArr m c) (flushed_eq m c) fun i => by
    have h0 : (i 0).val < 2 := (i 0).isLt
    have h1 : (i 1).val < 512 := (i 1).isLt
    have h2 : (i 2).val < 128 := (i 2).isLt
    have hlt : (i 0).val * 25 + 24 < cfg0.N := by rw [N50]; omega
    have hi := widx6 ⟨(i 0).val * 25 + 24, hlt⟩
    refine ⟨⟨(i 0).val * 25 + 24, hlt⟩, (flush0_6 _).mpr (by show ((i 0).val * 25 + 24) % 25 = 24; omega), ?_⟩
    rw [mem_blk6]
    intro a
    match a with
    | ⟨0, _⟩ =>
      show win0_6.index ⟨(i 0).val * 25 + 24, hlt⟩ 0 * 1 ≤ (i 0).val ∧ (i 0).val < win0_6.index ⟨(i 0).val * 25 + 24, hlt⟩ 0 * 1 + 1
      rw [hi.1]; show ((i 0).val * 25 + 24) / 25 * 1 ≤ (i 0).val ∧ (i 0).val < ((i 0).val * 25 + 24) / 25 * 1 + 1; omega
    | ⟨1, _⟩ =>
      show win0_6.index ⟨(i 0).val * 25 + 24, hlt⟩ 1 * 512 ≤ (i 1).val ∧ (i 1).val < win0_6.index ⟨(i 0).val * 25 + 24, hlt⟩ 1 * 512 + 512
      rw [hi.2.1]; omega
    | ⟨2, _⟩ =>
      show win0_6.index ⟨(i 0).val * 25 + 24, hlt⟩ 2 * 128 ≤ (i 2).val ∧ (i 2).val < win0_6.index ⟨(i 0).val * 25 + 24, hlt⟩ 2 * 128 + 128
      rw [hi.2.2]; omega

/-- The kernel's result on core c: what the host's sum after the region leaves. -/
abbrev kres (c : Dev nD) : Buf (Elt Ideal) ((c.tc : Thread nD τ).loc main_v48) :=
  Pipeline.afterTail₀ cfgs (dats m) 0 (V0 m) [hostOps1] c main_v48

set_option maxHeartbeats 4000000 in
/-- The host's sum of the two blocks, started from zero. -/
theorem kres_eq (c : Dev nD) : (kres m c : S512x128.Idx → EReal)
    = Host.reduceAdd (F := Ideal) (φ := .f32) (outFn m c) (constant (F := Ideal) S_ .f32 0x00000000#32) reducesTo_S2x512x128_S512x128_d0 h_S_ := by
  unfold kres Pipeline.afterTail₀
  show StableHlo.after hostOps1 _ (Proc.devRef .tc main_v48) = _
  after_results
  rw [(Pipeline.withArrays_arr spec0 launch0.win.arr_inj c _ _ 6).trans (final6 m c)]

/-- Dropping the core coordinate of (cc, u, q) leaves (u, q). -/
theorem lift_core (h : S2x512x128.Reduces [0] S512x128) (u : Fin 512) (q : Fin 128) (k : Fin 2) :
    h.lift (ix2 u q) k = ix3 k u q := by
  funext a
  refine Fin.ext ?_
  match a with
  | ⟨0, _⟩ => rfl
  | ⟨1, _⟩ => rfl
  | ⟨2, _⟩ => rfl

/-- THE KERNEL'S VALUE: its result at (u, q) is the pooled value, with the pre-activations formed by aggregating first. -/
theorem kernel_value (c : Dev nD) (u : Fin 512) (q : Fin 128) :
    kres m c (ix2 u q) = pooled (fun q => aB1 m c (ix1 q)) (fun p => aB2 m c (ix1 p)) (fun p u => aW3 m c (ix2 p u)) (fun u => aB3 m c (ix1 u)) (preK (hitOf (aE m c)) (srcOf (aE m c)) (nrmOf (aE m c)) (fun r k => aX m c (ix2 r k)) (fun k q => aW1 m c (ix2 k q))) (preK (hitOf (aE m c)) (srcOf (aE m c)) (nrmOf (aE m c)) (fun r k => aX m c (ix2 r k)) (fun k p => aW2 m c (ix2 k p))) u q := by
  refine (congrFun (kres_eq m c) (ix2 u q)).trans ?_
  rw [hostReduceAdd_apply, Ideal.hostReduceAdd_single reducesTo_S2x512x128_S512x128_d0 (by decide : S2x512x128.Reduces [0] S512x128)]
  rw [constant_apply, Ideal.ofBits_zero_f32, zero_add]
  show ∑ k : Fin 2, outFn m c ((by decide : S2x512x128.Reduces [0] S512x128).lift (ix2 u q) k) = _
  rw [Fin.sum_univ_two, lift_core, lift_core, ← cores_sum]
  unfold accAt outFn
  have h24 : (24 : ℕ) < cfg0.N := by rw [N50]; omega
  have h49 : (49 : ℕ) < cfg0.N := by rw [N50]; omega
  rw [dif_pos h24, dif_pos h49]
  rfl

/-- THE KERNEL'S RUN, READ: every weakly fair execution ends with the result at `kres` and the arguments as launched. -/
theorem run : θ_run defs (onTc (τ := τ) (main (F := Ideal))) ⟨m, fun _ => 0, ρ⟩ fun r => ∀ c : Dev nD,
      r.2.mem ((c.tc : Thread nD τ).loc main_v48) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).2 main_v48 (Pipeline.mem_restRefs_of main_v48 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 2).trans ((((dats m) 0 c).arrAt_in 2 rfl _).trans ((A_eq m c 2).trans (V_main_arg6 m c))),
      (((h c).2 main_arg7 (Pipeline.mem_restRefs_of main_arg7 (by decide) (by decide))).trans (W_main_arg7 m (dats m) c))⟩)
    (run_main m ρ)

end Cert.KernelIdeal.PoolValue

end
-- ==== Proof.RefValue.lean ====
/-
  THE REFERENCE PROGRAM'S RESULT, READ AT AN INDEX, IS THE SPECIFICATION'S POOLED VALUE.

  The reference multiplies the node features by a weight matrix first and aggregates the products along the edges
  afterwards. Read at one index, each of its stages is a small expression in the stages before it: a matrix product is the
  sum over the contracted coordinate; a gather of whole rows reads the operand at the row the edge's source word names; a
  scatter-add of whole rows into a zero matrix is the sum of the update rows over the edges landing on the row; a
  broadcast reads its operand at the coordinates it keeps; the pointwise operations act on the elements. Composed, the
  clamped activations at (n, q) are the specification's clamp of the pre-activation "aggregate the products" plus the
  bias; the logits, the row maximum, the exponentials, their row sum and the quotient are the specification's softmax of
  the node; and the last matrix product, contracted over the nodes, is the specification's pooled sum.
-/
import proofs.«149685_j16475494547689_2_alg».proof.Proof.RefRead
import proofs.«149685_j16475494547689_2_alg».proof.Proof.Spec
import proofs.«149685_j16475494547689_2_alg».proof.Proof.Edges
import proofs.«149685_j16475494547689_2_alg».proof.Proof.Rows
import Idealize.ShloMosaic.Lib.ValueIdx
import Idealize.ShloMosaic.Lib.IdealHost
import Idealize.ShloMosaic.PureOps.Ideal.Laws
import Idealize.ShloMosaic.PureOps.Reduce

noncomputable section

open scoped BigOperators

namespace Cert.ReferenceIdeal.PoolValue

open Cert.ReferenceIdeal Cert.ReferenceIdeal.Gen Cert.ReferenceIdeal.ReadP Cert.Pool Idealize.ShloMosaic Idealize.ShloMosaic.ValueIdx

/-- The arguments' types: the node features, the edge list, and the three layers' weights and biases. -/
abbrev X0 : Type := (⟨S50000x128, .f32⟩ : BufTy).Contents (Elt Ideal)
abbrev X1 : Type := (⟨S2x600000, .i32⟩ : BufTy).Contents (Elt Ideal)
abbrev X2 : Type := (⟨S128x128, .f32⟩ : BufTy).Contents (Elt Ideal)
abbrev X3 : Type := (⟨S128, .f32⟩ : BufTy).Contents (Elt Ideal)
abbrev X4 : Type := (⟨S128x64, .f32⟩ : BufTy).Contents (Elt Ideal)
abbrev X5 : Type := (⟨S64, .f32⟩ : BufTy).Contents (Elt Ideal)
abbrev X6 : Type := (⟨S64x512, .f32⟩ : BufTy).Contents (Elt Ideal)
abbrev X7 : Type := (⟨S512, .f32⟩ : BufTy).Contents (Elt Ideal)

/-! ## The embedding layer: clamped activations at (n, q) -/

/-- The features times the first weight matrix, at (r, q): the sum over the contracted coordinate. -/
theorem v4_at (x0 : X0) (x2 : X2) (r : Fin 50000) (q : Fin 128) :
    val_main_v4 (F := Ideal) x0 x2 (ix2 r q) = ∑ k : Fin 128, x0 (ix2 r k) * x2 (ix2 k q) := by
  rw [val_main_v4_apply]
  refine Finset.sum_congr rfl fun k _ => ?_
  have el : lidx_main_v4 (ix2 r q) k = ix2 r k :=
    funext fun a => Fin.ext (by match a with | ⟨0, _⟩ => rfl | ⟨1, _⟩ => rfl)
  have er : ridx_main_v4 (ix2 r q) k = ix2 k q :=
    funext fun a => Fin.ext (by match a with | ⟨0, _⟩ => rfl | ⟨1, _⟩ => rfl)
  rw [el, er]

/-- The gathered products: edge e reads the row of its source node. -/
theorem v37_at (x0 : X0) (x1 : X1) (x2 : X2) (e : Fin 650000) (q : Fin 128) :
    val_main_v37 (F := Ideal) x0 x1 x2 (ix2 e q) = val_main_v4 (F := Ideal) x0 x2 (ix2 (srcOf x1 e) q) := by
  unfold val_main_v37
  exact gather_rows_apply (by decide) gather_S50000x128_S650000x1_S650000x128_1_0_n_n_0_1_1128_wf
    (val_main_v4 (F := Ideal) x0 x2) (val_main_v36 (F := Ideal) x1) e q

/-- The edge weights, spread along the rows. -/
theorem v39_at (x1 : X1) (e : Fin 650000) (q : Fin 128) :
    val_main_v39 (F := Ideal) x1 (ix2 e q) = nrmOf x1 e := by
  rw [val_main_v39_apply, val_main_v38_apply]
  unfold nrmOf
  exact congrArg _ (funext fun a => Fin.ext (by match a with | ⟨0, _⟩ => rfl))

/-- The weighted products of edge e. -/
theorem v40_at (x0 : X0) (x1 : X1) (x2 : X2) (e : Fin 650000) (q : Fin 128) :
    val_main_v40 (F := Ideal) x0 x1 x2 (ix2 e q)
      = (∑ k : Fin 128, x0 (ix2 (srcOf x1 e) k) * x2 (ix2 k q)) * nrmOf x1 e := by
  rw [val_main_v40_apply, v37_at, v39_at, v4_at]
  rfl

/-- The aggregation: the weighted products summed over the edges landing on n. -/
theorem v43_at (x0 : X0) (x1 : X1) (x2 : X2) (n : Fin 50000) (q : Fin 128) :
    val_main_v43 (F := Ideal) x0 x1 x2 (ix2 n q)
      = ∑ e ∈ Finset.univ.filter (fun e : Fin 650000 => hitOf x1 e n), val_main_v40 (F := Ideal) x0 x1 x2 (ix2 e q) := by
  unfold val_main_v43 Host.scatterAdd
  show Ideal.hostScatterAdd (rowScatterDims 50000 650000 128 scatter_S50000x128_S650000x1_S650000x128_1_0_0_1_wf)
    (val_main_v41 (F := Ideal)) (val_main_v42 (F := Ideal) x1) (val_main_v40 (F := Ideal) x0 x1 x2) (ix2 n q) = _
  rw [scatterAdd_rows_apply]
  have h41 : val_main_v41 (F := Ideal) (ix2 n q) = 0 := by
    rw [val_main_v41_apply, val_main_cst_8_apply]
    exact Ideal.ofBits_zero_f32
  rw [h41, zero_add]
  refine Finset.sum_congr ?_ fun _ _ => rfl
  ext e
  simp only [Finset.mem_filter, Finset.mem_univ, true_and]
  rfl

/-- The first bias, spread along the columns. -/
theorem v45_at (x3 : X3) (n : Fin 50000) (q : Fin 128) :
    val_main_v45 (F := Ideal) x3 (ix2 n q) = x3 (ix1 q) := by
  rw [val_main_v45_apply, val_main_v44_apply]
  exact congrArg _ (funext fun a => Fin.ext (by match a with | ⟨0, _⟩ => rfl))

/-- The word the first clamp compares with. -/
theorem call1_v0_at (n : Fin 50000) (q : Fin 128) : val_main_call1_v0 (F := Ideal) (ix2 n q) = zero32 := by
  rw [val_main_call1_v0_apply, val_main_call1_cst_apply]
  rfl

/-- (a) THE EMBEDDING ACTIVATIONS at (n, q): the clamp of the pre-activation plus the bias. -/
theorem v47_at (x0 : X0) (x1 : X1) (x2 : X2) (x3 : X3) (n : Fin 50000) (q : Fin 128) :
    val_main_v47 (F := Ideal) x0 x1 x2 x3 (ix2 n q)
      = clamp (preR (hitOf x1) (srcOf x1) (nrmOf x1) (fun r k => x0 (ix2 r k)) (fun k q => x2 (ix2 k q)) n q) (x3 (ix1 q)) := by
  rw [val_main_v47_apply, val_main_v46_apply, v43_at, v45_at, call1_v0_at]
  simp only [v40_at]
  rfl

/-! ## The assignment layer: clamped activations at (n, p) -/

/-- The second graph convolution builds the edge data again, by the same operations on the same edge list. -/
theorem v86_eq (x1 : X1) : val_main_v86 (F := Ideal) x1 = val_main_v42 (F := Ideal) x1 := rfl
theorem v80_eq (x1 : X1) : val_main_v80 (F := Ideal) x1 = val_main_v36 (F := Ideal) x1 := rfl
theorem v74_eq (x1 : X1) : val_main_v74 (F := Ideal) x1 = val_main_v30 (F := Ideal) x1 := rfl

/-- The features times the second weight matrix, at (r, p). -/
theorem v48_at (x0 : X0) (x4 : X4) (r : Fin 50000) (p : Fin 64) :
    val_main_v48 (F := Ideal) x0 x4 (ix2 r p) = ∑ k : Fin 128, x0 (ix2 r k) * x4 (ix2 k p) := by
  rw [val_main_v48_apply]
  refine Finset.sum_congr rfl fun k _ => ?_
  have el : lidx_main_v48 (ix2 r p) k = ix2 r k :=
    funext fun a => Fin.ext (by match a with | ⟨0, _⟩ => rfl | ⟨1, _⟩ => rfl)
  have er : ridx_main_v48 (ix2 r p) k = ix2 k p :=
    funext fun a => Fin.ext (by match a with | ⟨0, _⟩ => rfl | ⟨1, _⟩ => rfl)
  rw [el, er]

theorem v81_at (x0 : X0) (x1 : X1) (x4 : X4) (e : Fin 650000) (p : Fin 64) :
    val_main_v81 (F := Ideal) x0 x1 x4 (ix2 e p) = val_main_v48 (F := Ideal) x0 x4 (ix2 (srcOf x1 e) p) := by
  unfold val_main_v81
  rw [v80_eq]
  exact gather_rows_apply (by decide) gather_S50000x64_S650000x1_S650000x64_1_0_n_n_0_1_164_wf
    (val_main_v48 (F := Ideal) x0 x4) (val_main_v36 (F := Ideal) x1) e p

theorem v83_at (x1 : X1) (e : Fin 650000) (p : Fin 64) :
    val_main_v83 (F := Ideal) x1 (ix2 e p) = nrmOf x1 e := by
  rw [val_main_v83_apply, val_main_v82_apply, v74_eq]
  unfold nrmOf
  exact congrArg _ (funext fun a => Fin.ext (by match a with | ⟨0, _⟩ => rfl))

theorem v84_at (x0 : X0) (x1 : X1) (x4 : X4) (e : Fin 650000) (p : Fin 64) :
    val_main_v84 (F := Ideal) x0 x1 x4 (ix2 e p)
      = (∑ k : Fin 128, x0 (ix2 (srcOf x1 e) k) * x4 (ix2 k p)) * nrmOf x1 e := by
  rw [val_main_v84_apply, v81_at, v83_at, v48_at]
  rfl

theorem v87_at (x0 : X0) (x1 : X1) (x4 : X4) (n : Fin 50000) (p : Fin 64) :
    val_main_v87 (F := Ideal) x0 x1 x4 (ix2 n p)
      = ∑ e ∈ Finset.univ.filter (fun e : Fin 650000 => hitOf x1 e n), val_main_v84 (F := Ideal) x0 x1 x4 (ix2 e p) := by
  unfold val_main_v87 Host.scatterAdd
  rw [v86_eq]
  show Ideal.hostScatterAdd (rowScatterDims 50000 650000 64 scatter_S50000x64_S650000x1_S650000x64_1_0_0_1_wf)
    (val_main_v85 (F := Ideal)) (val_main_v42 (F := Ideal) x1) (val_main_v84 (F := Ideal) x0 x1 x4) (ix2 n p) = _
  rw [scatterAdd_rows_apply]
  have h85 : val_main_v85 (F := Ideal) (ix2 n p) = 0 := by
    rw [val_main_v85_apply, val_main_cst_19_apply]
    exact Ideal.ofBits_zero_f32
  rw [h85, zero_add]
  refine Finset.sum_congr ?_ fun _ _ => rfl
  ext e
  simp only [Finset.mem_filter, Finset.mem_univ, true_and]
  rfl

theorem v89_at (x5 : X5) (n : Fin 50000) (p : Fin 64) :
    val_main_v89 (F := Ideal) x5 (ix2 n p) = x5 (ix1 p) := by
  rw [val_main_v89_apply, val_main_v88_apply]
  exact congrArg _ (funext fun a => Fin.ext (by match a with | ⟨0, _⟩ => rfl))

theorem call3_v0_at (n : Fin 50000) (p : Fin 64) : val_main_call3_v0 (F := Ideal) (ix2 n p) = zero32 := by
  rw [val_main_call3_v0_apply, val_main_call3_cst_apply]
  rfl

/-- (b) THE ASSIGNMENT ACTIVATIONS at (n, p). -/
theorem v91_at (x0 : X0) (x1 : X1) (x4 : X4) (x5 : X5) (n : Fin 50000) (p : Fin 64) :
    val_main_v91 (F := Ideal) x0 x1 x4 x5 (ix2 n p)
      = clamp (preR (hitOf x1) (srcOf x1) (nrmOf x1) (fun r k => x0 (ix2 r k)) (fun k p => x4 (ix2 k p)) n p) (x5 (ix1 p)) := by
  rw [val_main_v91_apply, val_main_v90_apply, v87_at, v89_at, call3_v0_at]
  simp only [v84_at]
  rfl

/-! ## The softmax of a node -/

/-- Node n's logits, as the specification writes them. -/
abbrev lg (x0 : X0) (x1 : X1) (x4 : X4) (x5 : X5) (x6 : X6) (x7 : X7) (n : Fin 50000) : Fin 512 → EReal :=
  logits (fun p u => x6 (ix2 p u)) (fun u => x7 (ix1 u))
    (fun p => clamp (preR (hitOf x1) (srcOf x1) (nrmOf x1) (fun r k => x0 (ix2 r k)) (fun k p => x4 (ix2 k p)) n p) (x5 (ix1 p)))

/-- (c) THE LOGITS at (n, u). -/
theorem v95_at (x0 : X0) (x1 : X1) (x4 : X4) (x5 : X5) (x6 : X6) (x7 : X7) (n : Fin 50000) (u : Fin 512) :
    val_main_v95 (F := Ideal) x0 x1 x4 x5 x6 x7 (ix2 n u) = lg x0 x1 x4 x5 x6 x7 n u := by
  rw [val_main_v95_apply, val_main_v92_apply, val_main_v94_apply, val_main_v93_apply]
  have hs : ∀ k : Fin 64, val_main_v91 (F := Ideal) x0 x1 x4 x5 (lidx_main_v92 (ix2 n u) k) * x6 (ridx_main_v92 (ix2 n u) k)
      = clamp (preR (hitOf x1) (srcOf x1) (nrmOf x1) (fun r k => x0 (ix2 r k)) (fun k p => x4 (ix2 k p)) n k) (x5 (ix1 k))
        * x6 (ix2 k u) := by
    intro k
    have el : lidx_main_v92 (ix2 n u) k = ix2 n k :=
      funext fun a => Fin.ext (by match a with | ⟨0, _⟩ => rfl | ⟨1, _⟩ => rfl)
    have er : ridx_main_v92 (ix2 n u) k = ix2 k u :=
      funext fun a => Fin.ext (by match a with | ⟨0, _⟩ => rfl | ⟨1, _⟩ => rfl)
    rw [el, er, v91_at]
  have hb : idx_main_v93 (idx_main_v94 (ix2 n u)) = ix1 u :=
    funext fun a => Fin.ext (by match a with | ⟨0, _⟩ => rfl)
  rw [Finset.sum_congr rfl fun k _ => hs k, hb]
  rfl

/-- The logits' row, as a function of the column. -/
theorem v95_row (x0 : X0) (x1 : X1) (x4 : X4) (x5 : X5) (x6 : X6) (x7 : X7) (n : Fin 50000) :
    (fun u : Fin 512 => val_main_v95 (F := Ideal) x0 x1 x4 x5 x6 x7 (ix2 n u)) = lg x0 x1 x4 x5 x6 x7 n :=
  funext fun u => v95_at x0 x1 x4 x5 x6 x7 n u

/-- The maximum over a row: the fold of the maximum over the columns, from the word for minus infinity. -/
theorem v96_at (x0 : X0) (x1 : X1) (x4 : X4) (x5 : X5) (x6 : X6) (x7 : X7) (n : Fin 50000) :
    val_main_v96 (F := Ideal) x0 x1 x4 x5 x6 x7 (ix1 n)
      = (Finset.univ : Finset (Fin 512)).fold max ninf32 (lg x0 x1 x4 x5 x6 x7 n) := by
  unfold val_main_v96
  have hr : S50000x512.Reduces [1] S50000 := by decide
  have h := Host.reduce_eq_fold_single (max : EReal → EReal → EReal) (val_main_v95 (F := Ideal) x0 x1 x4 x5 x6 x7)
    (val_main_cst_20 (F := Ideal)) reducesTo_S50000x512_S50000_d1 hr h_S_ (ix1 n)
  rw [← v95_row]
  refine h.trans ?_
  have hl : (val_main_v95 (F := Ideal) x0 x1 x4 x5 x6 x7) ∘ hr.lift (ix1 n)
      = fun u : Fin 512 => val_main_v95 (F := Ideal) x0 x1 x4 x5 x6 x7 (ix2 n u) := by
    funext u
    show val_main_v95 (F := Ideal) x0 x1 x4 x5 x6 x7 (hr.lift (ix1 n) u) = _
    exact congrArg _ (funext fun a => Fin.ext (by match a with | ⟨0, _⟩ => rfl | ⟨1, _⟩ => rfl))
  rw [hl]
  rfl

/-- (d) THE ROW MAXIMUM at n. -/
theorem v98_at (x0 : X0) (x1 : X1) (x4 : X4) (x5 : X5) (x6 : X6) (x7 : X7) (n : Fin 50000) :
    val_main_v98 (F := Ideal) x0 x1 x4 x5 x6 x7 (ix1 n) = rowMax (lg x0 x1 x4 x5 x6 x7 n) := by
  rw [val_main_v98_apply, v96_at, val_main_v97_apply, val_main_cst_21_apply]
  rfl

/-- The row maximum, spread along the row. -/
theorem v100_at (x0 : X0) (x1 : X1) (x4 : X4) (x5 : X5) (x6 : X6) (x7 : X7) (n : Fin 50000) (u : Fin 512) :
    val_main_v100 (F := Ideal) x0 x1 x4 x5 x6 x7 (ix2 n u) = rowMax (lg x0 x1 x4 x5 x6 x7 n) := by
  rw [val_main_v100_apply, val_main_v99_apply]
  have hi : idx_main_v99 (idx_main_v100 (ix2 n u)) = ix1 n :=
    funext fun a => Fin.ext (by match a with | ⟨0, _⟩ => rfl)
  rw [hi, v98_at]

/-- (e) THE SOFTMAX NUMERATORS at (n, u) … -/
theorem v102_at (x0 : X0) (x1 : X1) (x4 : X4) (x5 : X5) (x6 : X6) (x7 : X7) (n : Fin 50000) (u : Fin 512) :
    val_main_v102 (F := Ideal) x0 x1 x4 x5 x6 x7 (ix2 n u) = expo (lg x0 x1 x4 x5 x6 x7 n) u := by
  rw [val_main_v102_apply, val_main_v101_apply, v95_at, v100_at, Ideal.hostUnary_exp_def, Ideal.subf_def]
  unfold expo
  rfl

/-- … their sum over the row … -/
theorem v103_at (x0 : X0) (x1 : X1) (x4 : X4) (x5 : X5) (x6 : X6) (x7 : X7) (n : Fin 50000) :
    val_main_v103 (F := Ideal) x0 x1 x4 x5 x6 x7 (ix1 n) = ∑ v : Fin 512, expo (lg x0 x1 x4 x5 x6 x7 n) v := by
  rw [val_main_v103_apply, val_main_cst_22_apply]
  have h0 : (FloatOps.ofBits .f32 0x00000000#32 : Ideal .f32) = 0 := Ideal.ofBits_zero_f32
  rw [h0, zero_add]
  refine Finset.sum_congr rfl fun k _ => ?_
  have hi : idx_main_v103 (ix1 n) k = ix2 n k :=
    funext fun a => Fin.ext (by match a with | ⟨0, _⟩ => rfl | ⟨1, _⟩ => rfl)
  rw [hi, v102_at]

/-- … and the softmax at (n, u). -/
theorem v106_at (x0 : X0) (x1 : X1) (x4 : X4) (x5 : X5) (x6 : X6) (x7 : X7) (n : Fin 50000) (u : Fin 512) :
    val_main_v106 (F := Ideal) x0 x1 x4 x5 x6 x7 (ix2 n u) = soft (lg x0 x1 x4 x5 x6 x7 n) u := by
  rw [val_main_v106_apply, val_main_v105_apply, val_main_v104_apply, v102_at]
  have hi : idx_main_v104 (idx_main_v105 (ix2 n u)) = ix1 n :=
    funext fun a => Fin.ext (by match a with | ⟨0, _⟩ => rfl)
  rw [hi, v103_at]
  rfl

/-! ## The pooled result -/

/-- The transposed softmax at (u, n). -/
theorem v107_at (x0 : X0) (x1 : X1) (x4 : X4) (x5 : X5) (x6 : X6) (x7 : X7) (u : Fin 512) (n : Fin 50000) :
    val_main_v107 (F := Ideal) x0 x1 x4 x5 x6 x7 (ix2 u n) = soft (lg x0 x1 x4 x5 x6 x7 n) u := by
  rw [val_main_v107_apply]
  have hi : idx_main_v107 (ix2 u n) = ix2 n u :=
    funext fun a => Fin.ext (by match a with | ⟨0, _⟩ => rfl | ⟨1, _⟩ => rfl)
  rw [hi, v106_at]

/-- (f) THE REFERENCE'S RESULT at (u, q) is the specification's pooled value, the pre-activations being the aggregated
    products. -/
theorem ref_value (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x512, .f32⟩ : BufTy).Contents (Elt Ideal)) (x7 : (⟨S512, .f32⟩ : BufTy).Contents (Elt Ideal))
    (u : Fin 512) (q : Fin 128) :
    val_main_v108 (F := Ideal) x0 x1 x2 x3 x4 x5 x6 x7 (ix2 u q)
      = pooled (fun q => x3 (ix1 q)) (fun p => x5 (ix1 p)) (fun p u => x6 (ix2 p u)) (fun u => x7 (ix1 u))
          (preR (hitOf x1) (srcOf x1) (nrmOf x1) (fun r k => x0 (ix2 r k)) (fun k q => x2 (ix2 k q)))
          (preR (hitOf x1) (srcOf x1) (nrmOf x1) (fun r k => x0 (ix2 r k)) (fun k p => x4 (ix2 k p))) u q := by
  rw [val_main_v108_apply]
  unfold pooled node
  refine Finset.sum_congr rfl fun n _ => ?_
  have el : lidx_main_v108 (ix2 u q) n = ix2 u n :=
    funext fun a => Fin.ext (by match a with | ⟨0, _⟩ => rfl | ⟨1, _⟩ => rfl)
  have er : ridx_main_v108 (ix2 u q) n = ix2 n q :=
    funext fun a => Fin.ext (by match a with | ⟨0, _⟩ => rfl | ⟨1, _⟩ => rfl)
  rw [el, er, v107_at, v47_at]

end Cert.ReferenceIdeal.PoolValue

end
-- ==== Proof.Finite.lean ====
/-
  Finiteness.

  PART 2 (first below): every edge weight is a real number, whatever the edge list. The in-degree of a node is
  0 plus a finite sum of ones, hence a real number; where it is positive its inverse square root is the real
  (√d)⁻¹, and where it is not positive the weight factor is 0. An edge's weight is the product of two such factors.

  PART 1 (second below): under the precondition every entry of the seven float inputs is a real number. The
  precondition is one bit: for each float input, "|x| < +∞" at every entry, reduced by "and" over all entries, and the
  seven results joined by "and". The bit being 1, each of the seven reductions is 1, so each entry passes its test; and
  an extended real x with max x (-x) < ⊤ is neither ⊥ nor ⊤, hence a real number.
-/
import proofs.«149685_j16475494547689_2_alg».proof.Defs
import proofs.«149685_j16475494547689_2_alg».proof.Proof.Laws
import proofs.«149685_j16475494547689_2_alg».proof.Proof.Edges
import proofs.«149685_j16475494547689_2_alg».proof.Proof.Gen.Pre_finite_inputs
import Idealize.ShloMosaic.Lib.ReduceAll
import Idealize.ShloMosaic.Lib.ValueIdx
import Idealize.ShloMosaic.PureOps.Ideal.Laws

open scoped BigOperators

noncomputable section

namespace Cert.Pool

open Idealize.ShloMosaic Idealize.ShloMosaic.ValueIdx Cert.ReferenceIdeal Cert.ReferenceIdeal.Gen

/-- the 32-bit float word of the number one is a real number -/
theorem one_f32_real : IsReal (Ideal.ofBits .f32 0x3F800000#32) := by
  show IsReal (Ideal.ieee 8 23 0x3F800000#32)
  unfold Ideal.ieee
  -- the exponent field is neither all ones nor zero: the value is the real number of a normal pattern
  have h1 : ¬ ((0x3F800000#32 : BitVec 32).extractLsb' 23 8).toNat = 2 ^ 8 - 1 := by decide
  have h2 : ¬ ((0x3F800000#32 : BitVec 32).extractLsb' 23 8).toNat = 0 := by decide
  simp only [h1, h2, if_false]
  exact IsReal.coe _

/-- the inverse square root of a positive real number is a real number -/
theorem rsqrt_real_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg (ne_of_gt hr)]
  exact IsReal.coe _

/-- the in-degree of every node is a real number: 0 plus a finite sum of ones -/
theorem deg_real (ei : EdgeIx) (n : S50000.Idx) :
    IsReal (Cert.ReferenceIdeal.ReadP.val_main_v11 (F := Ideal) ei n) := by
  show IsReal (Cert.ReferenceIdeal.ReadP.val_main_v9 (F := Ideal) n + ∑ j ∈ _, Cert.ReferenceIdeal.ReadP.val_main_v8 (F := Ideal) j)
  refine IsReal.add ?_ (IsReal.sum _ _ (fun j _ => ?_))
  · rw [Cert.ReferenceIdeal.ReadP.val_main_v9_apply, Cert.ReferenceIdeal.ReadP.val_main_cst_0_apply, Ideal.ofBits_def,
      Ideal.ofBits_zero_f32]
    exact IsReal.zero
  · rw [Cert.ReferenceIdeal.ReadP.val_main_v8_apply, Cert.ReferenceIdeal.ReadP.val_main_cst_apply, Ideal.ofBits_def]
    exact one_f32_real

/-- the weight factor of every node is a real number -/
theorem v15_real (ei : EdgeIx) (n : S50000.Idx) :
    IsReal (Cert.ReferenceIdeal.ReadP.val_main_v15 (F := Ideal) ei n) := by
  rw [Cert.ReferenceIdeal.ReadP.val_main_v15_apply]
  by_cases hb : Cert.ReferenceIdeal.ReadP.val_main_v13 (F := Ideal) ei n = 1#1
  · rw [hb, select_one, Cert.ReferenceIdeal.ReadP.val_main_v14_apply, Ideal.hostUnary_rsqrt_def]
    refine rsqrt_real_of_pos (deg_real ei n) ?_
    rw [Cert.ReferenceIdeal.ReadP.val_main_v13_apply, Ideal.cmpf_def, Cert.ReferenceIdeal.ReadP.val_main_v12_apply,
      Cert.ReferenceIdeal.ReadP.val_main_cst_1_apply, Ideal.ofBits_def, Ideal.ofBits_zero_f32] at hb
    by_contra hpos
    simp [Ideal.cmp, hpos] at hb
  · rw [eq_zero_of_ne_one hb, select_zero, Cert.ReferenceIdeal.ReadP.val_main_call0_v1_apply,
      Cert.ReferenceIdeal.ReadP.val_main_call0_v0_apply, Cert.ReferenceIdeal.ReadP.val_main_cst_2_apply, Ideal.ofBits_def,
      Ideal.ofBits_zero_f32]
    exact IsReal.zero

/-- PART 2: every edge weight is real, for any edge list. -/
theorem nrmOf_real (ei : EdgeIx) (e : Fin 650000) : IsReal (nrmOf ei e) := by
  unfold nrmOf
  rw [Cert.ReferenceIdeal.ReadP.val_main_v30_apply, Ideal.mulf_def]
  refine IsReal.mul ?_ ?_
  · -- a gathered entry is the gathered array's entry at some index
    unfold Cert.ReferenceIdeal.ReadP.val_main_v22 Host.gather
    exact v15_real ei _
  · unfold Cert.ReferenceIdeal.ReadP.val_main_v29 Host.gather
    exact v15_real ei _

/-- the 32-bit float word with all exponent bits set and no fraction bits is +∞ -/
theorem inf_f32_eq_top : Ideal.ofBits .f32 0x7F800000#32 = ⊤ := by
  simp [Ideal.ofBits, Ideal.ieee]

/-- an extended real whose absolute value is below +∞ is a real number -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    IsReal x := by
  change Ideal.cmp .olt (max x (-x)) (Ideal.ofBits .f32 0x7F800000#32) = 1#1 at h
  rw [inf_f32_eq_top] at h
  induction x using EReal.rec with
  | bot => simp [Ideal.cmp] at h
  | coe r => exact IsReal.coe r
  | top => simp [Ideal.cmp] at h

/-- "every entry has absolute value below +∞", reduced by "and" over all entries to one bit that is 1:
every entry is real -/
theorem all_real_of_reduce {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] bc (constant (⟨0, ![]⟩ : Shape) .f32 0x7F800000#32)))
        (constantI (⟨0, ![]⟩ : Shape) 1 1#1) hr hu ix0 = 1#1) (i : s.Idx) : IsReal (x i) := by
  -- the result has a single index
  haveI : Subsingleton (⟨0, ![]⟩ : Shape).Idx := ⟨fun a b => funext fun d => d.elim0⟩
  have hi := Host.reduce_andi_all _ _ hr hu ix0 e i
  exact isReal_of_abs_lt_inf (x i) hi

/-- PART 1: under the precondition every entry of the seven float inputs is real. -/
theorem inputs_real [hF : Cert.Pre_finite_inputs.Facts]
    (a0 : FVec Ideal Cert.Pre_finite_inputs.S50000x128 .f32) (a1 : IVec Cert.Pre_finite_inputs.S2x600000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (a6 : FVec Ideal Cert.Pre_finite_inputs.S64x512 .f32) (a7 : FVec Ideal Cert.Pre_finite_inputs.S512 .f32)
    (h : Cert.Pre_finite_inputs.fn (F := Ideal) a0 a1 a2 a3 a4 a5 a6 a7 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  -- the one bit of the result, as the "and" of the seven reductions
  have e := congrFun h ix0
  dsimp only [Cert.Pre_finite_inputs.fn, Cert.Pre_finite_inputs.fn_part1, andi] at e
  simp only [IntOp.andi_eq_one] at e
  obtain ⟨⟨⟨⟨⟨⟨e0, e2⟩, e3⟩, e4⟩, e5⟩, e6⟩, e7⟩ := e
  exact ⟨all_real_of_reduce a0 _ _ _ e0, all_real_of_reduce a2 _ _ _ e2, all_real_of_reduce a3 _ _ _ e3,
    all_real_of_reduce a4 _ _ _ e4, all_real_of_reduce a5 _ _ _ e5, all_real_of_reduce a6 _ _ _ e6,
    all_real_of_reduce a7 _ _ _ e7⟩

end Cert.Pool

end
-- ==== Proof.lean ====
/-
  The five conjuncts of the certificate.

  Both programs build, on the host, the normalised adjacency of the graph with self-loops: the in-degree of
  every node as a count of incoming edges, its inverse square root where the degree is positive, and for every
  edge the product of the two endpoint factors. The reference multiplies the node features by a weight matrix and
  then aggregates along the edges; the kernel aggregates the raw features and multiplies afterwards. The two agree
  because aggregation is linear and every factor is a real number: the features and weights by the precondition,
  the edge weights because a degree is a finite count. The remaining stages (bias, clamping at zero, the row-wise
  softmax of an affine map, and the product of the transposed assignment with the embedding) are the same
  functions of a node's pre-activation rows; the last product is a sum over all nodes, which the kernel splits
  into two halves of twenty-five tiles of a thousand rows each.
-/
import proofs.«149685_j16475494547689_2_alg».proof.Defs
import proofs.«149685_j16475494547689_2_alg».proof.Proof.Gen.Kernel
import proofs.«149685_j16475494547689_2_alg».proof.Proof.Gen.Kernel.Skeleton
import proofs.«149685_j16475494547689_2_alg».proof.Proof.Gen.Kernel.Launch
import proofs.«149685_j16475494547689_2_alg».proof.Proof.Gen.Kernel.Points
import proofs.«149685_j16475494547689_2_alg».proof.Proof.Gen.Kernel.Frame
import proofs.«149685_j16475494547689_2_alg».proof.Proof.Gen.KernelIdeal
import proofs.«149685_j16475494547689_2_alg».proof.Proof.Gen.KernelIdeal.Skeleton
import proofs.«149685_j16475494547689_2_alg».proof.Proof.Gen.KernelIdeal.Launch
import proofs.«149685_j16475494547689_2_alg».proof.Proof.Gen.KernelIdeal.Points
import proofs.«149685_j16475494547689_2_alg».proof.Proof.Gen.KernelIdeal.Frame
import proofs.«149685_j16475494547689_2_alg».proof.Proof.Gen.ReferenceIdeal
import proofs.«149685_j16475494547689_2_alg».proof.Proof.RefRun
import proofs.«149685_j16475494547689_2_alg».proof.Proof.RefRead
import proofs.«149685_j16475494547689_2_alg».proof.Proof.Gen.Pre_finite_inputs
import proofs.«149685_j16475494547689_2_alg».proof.Proof.KernelFinal
import proofs.«149685_j16475494547689_2_alg».proof.Proof.RefValue
import proofs.«149685_j16475494547689_2_alg».proof.Proof.Bridge
import proofs.«149685_j16475494547689_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx Cert.Pool

/-- At the ideal values the kernel's result array ends at the pooled value with the pre-activations formed by
    aggregating first, the reference's with the products aggregated; under the precondition the two pre-activations
    are equal, entry by entry. -/
theorem algebraic : Cert.algebraic_KernelIdeal_ReferenceIdeal := by
  intro m ρ m' ρ' hpre hagree
  refine ⟨fun c => Cert.KernelIdeal.PoolValue.kres m c, Cert.KernelIdeal.PoolValue.run m ρ, ?_⟩
  refine (θ_run Cert.ReferenceIdeal.defs _ _).mono (fun _ h c => ⟨(h c).1.trans ?_, (h c).2⟩)
    (Cert.ReferenceIdeal.ValueP.run (F := Ideal) m' ρ')
  show (Cert.ReferenceIdeal.ValueP.res_main_v108 m' c : Cert.ReferenceIdeal.S512x128.Idx → EReal) = Cert.KernelIdeal.PoolValue.kres m c
  funext i
  obtain ⟨u, q, rfl⟩ : ∃ (u : Fin 512) (q : Fin 128), i = ix2 u q := ⟨i 0, i 1, eq_ix2 i⟩
  rw [Cert.ReferenceIdeal.ReadP.val_main_v108_eq, Cert.ReferenceIdeal.PoolValue.ref_value,
    (hagree c).1, (hagree c).2.1, (hagree c).2.2.1, (hagree c).2.2.2.1, (hagree c).2.2.2.2.1, (hagree c).2.2.2.2.2.1,
    (hagree c).2.2.2.2.2.2.1, (hagree c).2.2.2.2.2.2.2, Cert.KernelIdeal.PoolValue.kernel_value]
  obtain ⟨h0, h2, -, h4, -, -, -⟩ := Cert.Pool.inputs_real _ _ _ _ _ _ _ _ (hpre c)
  have e1 := funext fun n => funext fun q' => preR_eq_preK
    (hitOf (Cert.KernelIdeal.PoolValue.aE m c)) (srcOf (Cert.KernelIdeal.PoolValue.aE m c)) (nrmOf (Cert.KernelIdeal.PoolValue.aE m c))
    (fun r k => Cert.KernelIdeal.PoolValue.aX m c (ix2 r k)) (fun k q => Cert.KernelIdeal.PoolValue.aW1 m c (ix2 k q))
    (fun r k => h0 (ix2 r k)) (fun k q => h2 (ix2 k q)) (fun e => nrmOf_real _ e) n q'
  have e2 := funext fun n => funext fun p' => preR_eq_preK
    (hitOf (Cert.KernelIdeal.PoolValue.aE m c)) (srcOf (Cert.KernelIdeal.PoolValue.aE m c)) (nrmOf (Cert.KernelIdeal.PoolValue.aE m c))
    (fun r k => Cert.KernelIdeal.PoolValue.aX m c (ix2 r k)) (fun k p => Cert.KernelIdeal.PoolValue.aW2 m c (ix2 k p))
    (fun r k => h0 (ix2 r k)) (fun k p => h4 (ix2 k p)) (fun e => nrmOf_real _ e) n p'
  rw [e1, e2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
